-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x12x2048x64 : Shape := ⟨4, ![2, 12, 2048, 64]⟩
abbrev S2x2048 : Shape := ⟨2, ![2, 2048]⟩
abbrev S_ : Shape := ⟨0, ![]⟩

class Facts : Prop where
  bcast_S_S2x12x2048x64 : S_.BroadcastsInDim S2x12x2048x64 (![] : Fin 0 → Fin S2x12x2048x64.rank)
  reducesTo_S2x12x2048x64_S_d0_1_2_3 : S2x12x2048x64.ReducesTo [0, 1, 2, 3] S_
  h_S_ : 0 < S_.numel
  bcast_S_S2x2048 : S_.BroadcastsInDim S2x2048 (![] : Fin 0 → Fin S2x2048.rank)
  reducesTo_S2x2048_S_d0_1 : S2x2048.ReducesTo [0, 1] S_

variable [Facts]

def fn_part1 {F : FTy → Type} [FloatOps F] (main_v13 : IVec S_ 1) (main_v16 : IVec S2x2048 1) : IVec S_ 1 :=
  let main_c_5 : IVec S_ 1 := constantI S_ 1 1#1
  let main_v17 : IVec S_ 1 := (fun x v => Host.reduce IntOp.andi x v reducesTo_S2x2048_S_d0_1 h_S_) main_v16 main_c_5
  let main_v18 : IVec S_ 1 := andi main_v13 main_v17
  main_v18

def fn {F : FTy → Type} [FloatOps F] (main_arg0 : FVec F S2x12x2048x64 .f32) (main_arg1 : FVec F S2x12x2048x64 .f32) (main_arg2 : FVec F S2x12x2048x64 .f32) (main_arg3 : FVec F S2x2048 .f32) : IVec S_ 1 :=
  let main_v0 : FVec F S2x12x2048x64 .f32 := Host.absf main_arg0
  let main_cst : FVec F S_ .f32 := constant S_ .f32 0x7F800000#32
  let main_v1 : FVec F S2x12x2048x64 .f32 := broadcastInDim S2x12x2048x64 ![] bcast_S_S2x12x2048x64 main_cst
  let main_v2 : IVec S2x12x2048x64 1 := cmpf .olt main_v0 main_v1
  let main_c : IVec S_ 1 := constantI S_ 1 1#1
  let main_v3 : IVec S_ 1 := (fun x v => Host.reduce IntOp.andi x v reducesTo_S2x12x2048x64_S_d0_1_2_3 h_S_) main_v2 main_c
  let main_v4 : FVec F S2x12x2048x64 .f32 := Host.absf main_arg1
  let main_cst_0 : FVec F S_ .f32 := constant S_ .f32 0x7F800000#32
  let main_v5 : FVec F S2x12x2048x64 .f32 := broadcastInDim S2x12x2048x64 ![] bcast_S_S2x12x2048x64 main_cst_0
  let main_v6 : IVec S2x12x2048x64 1 := cmpf .olt main_v4 main_v5
  let main_c_1 : IVec S_ 1 := constantI S_ 1 1#1
  let main_v7 : IVec S_ 1 := (fun x v => Host.reduce IntOp.andi x v reducesTo_S2x12x2048x64_S_d0_1_2_3 h_S_) main_v6 main_c_1
  let main_v8 : IVec S_ 1 := andi main_v3 main_v7
  let main_v9 : FVec F S2x12x2048x64 .f32 := Host.absf main_arg2
  let main_cst_2 : FVec F S_ .f32 := constant S_ .f32 0x7F800000#32
  let main_v10 : FVec F S2x12x2048x64 .f32 := broadcastInDim S2x12x2048x64 ![] bcast_S_S2x12x2048x64 main_cst_2
  let main_v11 : IVec S2x12x2048x64 1 := cmpf .olt main_v9 main_v10
  let main_c_3 : IVec S_ 1 := constantI S_ 1 1#1
  let main_v12 : IVec S_ 1 := (fun x v => Host.reduce IntOp.andi x v reducesTo_S2x12x2048x64_S_d0_1_2_3 h_S_) main_v11 main_c_3
  let main_v13 : IVec S_ 1 := andi main_v8 main_v12
  let main_v14 : FVec F S2x2048 .f32 := Host.absf main_arg3
  let main_cst_4 : FVec F S_ .f32 := constant S_ .f32 0x7F800000#32
  let main_v15 : FVec F S2x2048 .f32 := broadcastInDim S2x2048 ![] bcast_S_S2x2048 main_cst_4
  let main_v16 : IVec S2x2048 1 := cmpf .olt main_v14 main_v15
  fn_part1 (F := F) main_v13 main_v16
-- ==== Kernel.lean ====
abbrev S2x12x2048x64 : Shape := ⟨4, ![2, 12, 2048, 64]⟩
abbrev S2x2048 : Shape := ⟨2, ![2, 2048]⟩
abbrev S24x2048x64 : Shape := ⟨3, ![24, 2048, 64]⟩
abbrev S2x12x2048 : Shape := ⟨3, ![2, 12, 2048]⟩
abbrev S24x2048 : Shape := ⟨2, ![24, 2048]⟩
abbrev S24x2048x1 : Shape := ⟨3, ![24, 2048, 1]⟩
abbrev S24x1x2048 : Shape := ⟨3, ![24, 1, 2048]⟩
abbrev S1x1024x64 : Shape := ⟨3, ![1, 1024, 64]⟩
abbrev S1x2048x64 : Shape := ⟨3, ![1, 2048, 64]⟩
abbrev S1x1024x1 : Shape := ⟨3, ![1, 1024, 1]⟩
abbrev S1x2048x1 : Shape := ⟨3, ![1, 2048, 1]⟩
abbrev S1x1x2048 : Shape := ⟨3, ![1, 1, 2048]⟩
abbrev S1024x64 : Shape := ⟨2, ![1024, 64]⟩
abbrev S1024x1 : Shape := ⟨2, ![1024, 1]⟩
abbrev S2048x64 : Shape := ⟨2, ![2048, 64]⟩
abbrev S2048x1 : Shape := ⟨2, ![2048, 1]⟩
abbrev S1024 : Shape := ⟨1, ![1024]⟩
abbrev S2048 : Shape := ⟨1, ![2048]⟩
abbrev S1x2048 : Shape := ⟨2, ![1, 2048]⟩
abbrev S64x2048 : Shape := ⟨2, ![64, 2048]⟩
abbrev S1024x2048 : Shape := ⟨2, ![1024, 2048]⟩

abbrev nBuf : Space → Nat
  | .hbm => 13
  | .vmem => 14
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x2048, .f32⟩
  | .hbm, ⟨4, _⟩ => ⟨S24x2048x64, .f32⟩
  | .hbm, ⟨5, _⟩ => ⟨S24x2048x64, .f32⟩
  | .hbm, ⟨6, _⟩ => ⟨S24x2048x64, .f32⟩
  | .hbm, ⟨7, _⟩ => ⟨S2x12x2048, .f32⟩
  | .hbm, ⟨8, _⟩ => ⟨S24x2048, .f32⟩
  | .hbm, ⟨9, _⟩ => ⟨S24x2048x1, .f32⟩
  | .hbm, ⟨10, _⟩ => ⟨S24x1x2048, .f32⟩
  | .hbm, ⟨11, _⟩ => ⟨S24x2048x64, .f32⟩
  | .hbm, ⟨12, _⟩ => ⟨S2x12x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x1, .f32⟩
  | .local _ .vmem, ⟨7, _⟩ => ⟨S1x1024x1, .f32⟩
  | .local _ .vmem, ⟨8, _⟩ => ⟨S1x2048x1, .f32⟩
  | .local _ .vmem, ⟨9, _⟩ => ⟨S1x2048x1, .f32⟩
  | .local _ .vmem, ⟨10, _⟩ => ⟨S1x1x2048, .f32⟩
  | .local _ .vmem, ⟨11, _⟩ => ⟨S1x1x2048, .f32⟩
  | .local _ .vmem, ⟨12, _⟩ => ⟨S1x1024x64, .f32⟩
  | .local _ .vmem, ⟨13, _⟩ => ⟨S1x1024x64, .f32⟩
  | _, _ => ⟨S2x12x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S2x12x2048x64_S24x2048x64 : S2x12x2048x64.ShapeCasts S24x2048x64
  bcast_S2x2048_S2x12x2048_0_2 : S2x2048.BroadcastsInDim S2x12x2048 (![0, 2] : Fin 2 → Fin S2x12x2048.rank)
  shapeCasts_S2x12x2048_S24x2048 : S2x12x2048.ShapeCasts S24x2048
  bcast_S24x2048_S24x2048x1_0_1 : S24x2048.BroadcastsInDim S24x2048x1 (![0, 1] : Fin 2 → Fin S24x2048x1.rank)
  bcast_S24x2048_S24x1x2048_0_2 : S24x2048.BroadcastsInDim S24x1x2048 (![0, 2] : Fin 2 → Fin S24x1x2048.rank)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  broadcasts_S1024x1_S1024x64 : S1024x1.Broadcasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  broadcasts_S2048x1_S2048x64 : S2048x1.Broadcasts S2048x64
  reduces_S1024x64_S1024 : S1024x64.Reduces [1] S1024
  shapeCasts_S1024_S1024x1 : S1024.ShapeCasts S1024x1
  reduces_S2048x64_S2048 : S2048x64.Reduces [1] S2048
  shapeCasts_S2048_S2048x1 : S2048.ShapeCasts S2048x1
  transposes_S2048x1_p1_0_S1x2048 : S2048x1.Transposes [1, 0] S1x2048
  bitsLt_bf16_f32 : FTy.bits .bf16 < FTy.bits .f32
  transposes_S2048x64_p1_0_S64x2048 : S2048x64.Transposes [1, 0] S64x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1024x1_S1024x2048 : S1024x1.Broadcasts S1024x2048
  broadcasts_S1x2048_S1024x2048 : S1x2048.Broadcasts S1024x2048
  shapeCasts_S1024x64_S1x1024x64 : S1024x64.ShapeCasts S1x1024x64
  shapeCasts_S24x2048x64_S2x12x2048x64 : S24x2048x64.ShapeCasts S2x12x2048x64
  dot_S1024x64_S64x2048_S1024x2048_1_0_0_1_n_n_wf : DotDims.WF S1024x64 S64x2048 S1024x2048 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S24x2048x64.size a
  hwx0_0 : ∀ i : grid0.Coords, EltTy.bits .f32 = 32 ∨ (Rect.block (s := S24x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S24x2048x64.size a
  hwx0_1 : ∀ i : grid0.Coords, EltTy.bits .f32 = 32 ∨ (Rect.block (s := S24x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S24x2048x64.size a
  hwx0_2 : ∀ i : grid0.Coords, EltTy.bits .f32 = 32 ∨ (Rect.block (s := S24x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S24x2048x1.size a
  hwx0_3 : ∀ i : grid0.Coords, EltTy.bits .f32 = 32 ∨ (Rect.block (s := S24x2048x1) S1x1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1.size a ≤ S24x2048x1.size a
  hwx0_4 : ∀ i : grid0.Coords, EltTy.bits .f32 = 32 ∨ (Rect.block (s := S24x2048x1) S1x2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S24x1x2048.size a
  hwx0_5 : ∀ i : grid0.Coords, EltTy.bits .f32 = 32 ∨ (Rect.block (s := S24x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S24x2048x64.size a
  hwx0_6 : ∀ i : grid0.Coords, EltTy.bits .f32 = 32 ∨ (Rect.block (s := S24x2048x64) S1x1024x64.size (cc0_transform_6 i) (hinb0_6 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x12x2048x64 : Shape := ⟨4, ![2, 12, 2048, 64]⟩
abbrev S2x2048 : Shape := ⟨2, ![2, 2048]⟩
abbrev S2x1x2048x1 : Shape := ⟨4, ![2, 1, 2048, 1]⟩
abbrev S_ : Shape := ⟨0, ![]⟩
abbrev S2x12x2048 : Shape := ⟨3, ![2, 12, 2048]⟩
abbrev S2x12x2048x1 : Shape := ⟨4, ![2, 12, 2048, 1]⟩
abbrev S2x12x1x2048 : Shape := ⟨4, ![2, 12, 1, 2048]⟩
abbrev S2x12x2048x2048 : Shape := ⟨4, ![2, 12, 2048, 2048]⟩
abbrev S2x1x1x2048 : Shape := ⟨4, ![2, 1, 1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2x12x2048x64, .f32⟩
  | .hbm, ⟨1, _⟩ => ⟨S2x12x2048x64, .f32⟩
  | .hbm, ⟨2, _⟩ => ⟨S2x12x2048x64, .f32⟩
  | .hbm, ⟨3, _⟩ => ⟨S2x2048, .f32⟩
  | .hbm, ⟨4, _⟩ => ⟨S2x1x2048x1, .f32⟩
  | .hbm, ⟨5, _⟩ => ⟨S_, .f32⟩
  | .hbm, ⟨6, _⟩ => ⟨S2x1x2048x1, .f32⟩
  | .hbm, ⟨7, _⟩ => ⟨S2x1x2048x1, .f32⟩
  | .hbm, ⟨8, _⟩ => ⟨S2x12x2048x64, .f32⟩
  | .hbm, ⟨9, _⟩ => ⟨S2x12x2048x64, .f32⟩
  | .hbm, ⟨10, _⟩ => ⟨S2x12x2048x64, .f32⟩
  | .hbm, ⟨11, _⟩ => ⟨S2x12x2048x64, .f32⟩
  | .hbm, ⟨12, _⟩ => ⟨S2x12x2048x64, .f32⟩
  | .hbm, ⟨13, _⟩ => ⟨S_, .f32⟩
  | .hbm, ⟨14, _⟩ => ⟨S2x12x2048, .f32⟩
  | .hbm, ⟨15, _⟩ => ⟨S2x12x2048x1, .f32⟩
  | .hbm, ⟨16, _⟩ => ⟨S_, .f32⟩
  | .hbm, ⟨17, _⟩ => ⟨S2x12x2048x1, .f32⟩
  | .hbm, ⟨18, _⟩ => ⟨S2x12x2048x1, .f32⟩
  | .hbm, ⟨19, _⟩ => ⟨S2x12x2048x64, .f32⟩
  | .hbm, ⟨20, _⟩ => ⟨S_, .f32⟩
  | .hbm, ⟨21, _⟩ => ⟨S2x12x2048, .f32⟩
  | .hbm, ⟨22, _⟩ => ⟨S2x12x1x2048, .f32⟩
  | .hbm, ⟨23, _⟩ => ⟨S_, .f32⟩
  | .hbm, ⟨24, _⟩ => ⟨S2x12x1x2048, .f32⟩
  | .hbm, ⟨25, _⟩ => ⟨S2x12x1x2048, .f32⟩
  | .hbm, ⟨26, _⟩ => ⟨S2x12x2048x2048, .f32⟩
  | .hbm, ⟨27, _⟩ => ⟨S2x12x2048x2048, .f32⟩
  | .hbm, ⟨28, _⟩ => ⟨S2x12x2048x2048, .f32⟩
  | .hbm, ⟨29, _⟩ => ⟨S2x12x2048x2048, .f32⟩
  | .hbm, ⟨30, _⟩ => ⟨S2x12x2048x2048, .f32⟩
  | .hbm, ⟨31, _⟩ => ⟨S2x1x1x2048, .f32⟩
  | .hbm, ⟨32, _⟩ => ⟨S_, .f32⟩
  | .hbm, ⟨33, _⟩ => ⟨S2x1x1x2048, .f32⟩
  | .hbm, ⟨34, _⟩ => ⟨S2x1x1x2048, .f32⟩
  | .hbm, ⟨35, _⟩ => ⟨S_, .f32⟩
  | .hbm, ⟨36, _⟩ => ⟨S2x1x1x2048, .f32⟩
  | .hbm, ⟨37, _⟩ => ⟨S2x1x1x2048, .f32⟩
  | .hbm, ⟨38, _⟩ => ⟨S2x12x2048x2048, .f32⟩
  | .hbm, ⟨39, _⟩ => ⟨S2x12x2048x2048, .f32⟩
  | .hbm, ⟨40, _⟩ => ⟨S2x12x2048x2048, .f32⟩
  | .hbm, ⟨41, _⟩ => ⟨S2x12x2048x64, .f32⟩
  | _, _ => ⟨S2x12x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  bcast_S2x2048_S2x1x2048x1_0_2 : S2x2048.BroadcastsInDim S2x1x2048x1 (![0, 2] : Fin 2 → Fin S2x1x2048x1.rank)
  bcast_S_S2x1x2048x1 : S_.BroadcastsInDim S2x1x2048x1 (![] : Fin 0 → Fin S2x1x2048x1.rank)
  bcast_S2x1x2048x1_S2x12x2048x64_0_1_2_3 : S2x1x2048x1.BroadcastsInDim S2x12x2048x64 (![0, 1, 2, 3] : Fin 4 → Fin S2x12x2048x64.rank)
  reducesTo_S2x12x2048x64_S2x12x2048_d3 : S2x12x2048x64.ReducesTo [3] S2x12x2048
  h_S_ : 0 < S_.numel
  bcast_S2x12x2048_S2x12x2048x1_0_1_2 : S2x12x2048.BroadcastsInDim S2x12x2048x1 (![0, 1, 2] : Fin 3 → Fin S2x12x2048x1.rank)
  bcast_S_S2x12x2048x1 : S_.BroadcastsInDim S2x12x2048x1 (![] : Fin 0 → Fin S2x12x2048x1.rank)
  bcast_S2x12x2048_S2x12x1x2048_0_1_3 : S2x12x2048.BroadcastsInDim S2x12x1x2048 (![0, 1, 3] : Fin 3 → Fin S2x12x1x2048.rank)
  bcast_S_S2x12x1x2048 : S_.BroadcastsInDim S2x12x1x2048 (![] : Fin 0 → Fin S2x12x1x2048.rank)
  bcast_S2x12x2048x1_S2x12x2048x2048_0_1_2_3 : S2x12x2048x1.BroadcastsInDim S2x12x2048x2048 (![0, 1, 2, 3] : Fin 4 → Fin S2x12x2048x2048.rank)
  bcast_S2x12x1x2048_S2x12x2048x2048_0_1_2_3 : S2x12x1x2048.BroadcastsInDim S2x12x2048x2048 (![0, 1, 2, 3] : Fin 4 → Fin S2x12x2048x2048.rank)
  bcast_S2x2048_S2x1x1x2048_0_3 : S2x2048.BroadcastsInDim S2x1x1x2048 (![0, 3] : Fin 2 → Fin S2x1x1x2048.rank)
  bcast_S_S2x1x1x2048 : S_.BroadcastsInDim S2x1x1x2048 (![] : Fin 0 → Fin S2x1x1x2048.rank)
  bcast_S2x1x1x2048_S2x12x2048x2048_0_1_2_3 : S2x1x1x2048.BroadcastsInDim S2x12x2048x2048 (![0, 1, 2, 3] : Fin 4 → Fin S2x12x2048x2048.rank)
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]

variable [Facts₀]

def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf

class Facts : Prop extends Facts₀ where

variable [Facts]
-- ==== Proof.KernelBody.lean ====
/-
  The kernel's body at one grid point, and the pipeline's proof data.

  A grid point (bh, qi) of the 24 × 2 grid is handed seven staging buffers: a 1024-row tile of Q and of the query mask,
  the whole 2048-row K, V, key-mask column and key-mask row of the batch-head bh, and the 1024-row output tile. The body
  loads the six inputs whole, computes one 1024 × 64 tile and stores it over the whole output buffer; it keeps nothing
  between points. So after the body each input buffer still holds its block of the array behind it, and the output
  buffer holds one pure function (`outTile`) of the six input blocks. The key-mask column and the query-mask tile are
  two windows on ONE array; nothing here depends on that (the staging buffers are distinct) — it matters only at the
  launch, where that array's ownership is divided between the two windows.
-/
import proofs.«120666_j6957847019895_1_alg».proof.Proof.Gen.Kernel.Launch
import proofs.«120666_j6957847019895_1_alg».proof.Proof.Gen.Kernel.Skeleton
import proofs.«120666_j6957847019895_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the seven host operations
    (three reshapes of Q, K, V to 24 batch-heads, the mask repeated over the heads and given its two unit axes). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window whose
    block index ignores the q-tile coordinate is fetched at every second point only: between two fetches the index has
    not moved), for any proof data whose array is the region-entry contents and whose body leaves the block in place.
    Stated window by window: the block's index type computes only at a literal window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rQ : Rect S1x1024x64 := Rect.unit (s := S1x1024x64) ![0, 0, 0] S1x1024x64.size inb_S1x1024x64_S1x1024x64_0_0_0
abbrev rK : Rect S1x2048x64 := Rect.unit (s := S1x2048x64) ![0, 0, 0] S1x2048x64.size inb_S1x2048x64_S1x2048x64_0_0_0
abbrev rMq : Rect S1x1024x1 := Rect.unit (s := S1x1024x1) ![0, 0, 0] S1x1024x1.size inb_S1x1024x1_S1x1024x1_0_0_0
abbrev rMc : Rect S1x2048x1 := Rect.unit (s := S1x2048x1) ![0, 0, 0] S1x2048x1.size inb_S1x2048x1_S1x2048x1_0_0_0
abbrev rMr : Rect S1x1x2048 := Rect.unit (s := S1x1x2048) ![0, 0, 0] S1x1x2048.size inb_S1x1x2048_S1x1x2048_0_0_0

/-- The tile the body computes from its six loads: the skeleton's payloads composed — the scaled and masked Q tile and
    K, their half squared row norms, the score matrix, the mask penalty, and the product of the exponentials with V. -/
def tile (q : Vec F S1x1024x64 .f32) (k v : Vec F S1x2048x64 .f32) (mq : Vec F S1x1024x1 .f32) (mc : Vec F S1x2048x1 .f32)
    (mr : Vec F S1x1x2048 .f32) : FVec F S1x1024x64 .f32 :=
  k0_pay1 (k0_pay4 q mq) (k0_pay5 k mc) (k0_pay6 q mq k mc) (k0_pay7 mr) v

/-- The output window's staging buffer after the body, from the input windows' blocks: its one store, over the whole buffer. -/
def outTile (x0 : Vec F S1x1024x64 .f32) (x1 x2 : Vec F S1x2048x64 .f32) (x3 : Vec F S1x1024x1 .f32) (x4 : Vec F S1x2048x1 .f32)
    (x5 : Vec F S1x1x2048 .f32) : Vec F S1x1024x64 .f32 :=
  View.canon [⟨rQ, tile (View.ld x0 rQ) (View.ld x1 rK) (View.ld x2 rK) (View.ld x3 rMq) (View.ld x4 rMc) (View.ld x5 rMr)⟩]

/-- The store covers the buffer. -/
theorem cover_out (p0 : Vec F S1x1024x64 .f32) (y : S1x1024x64.Idx) :
    ∃ pc ∈ ([⟨rQ, p0⟩] : List (View.Piece (Elt F) S1x1024x64 .f32)), y ∈ pc.1.set :=
  View.cover_of_tiled [⟨rQ, p0⟩] S1x1024x64.size (by rfl) y

/-! ## The body's triple -/

set_option maxHeartbeats 4000000 in
/-- The kernel body on whole staging memrefs, the inputs' at read contents and the output's at anything, runs to the
    continuation holding the inputs' as they were and the output's at `outTile` of the inputs'. -/
theorem sound_kernel (c : Dev nD) (E : Set ℕ) (i : grid0.Coords)
    (arg2 : Memref sig .tc .vmem S1x1024x64 .f32) (harg2 : arg2.IsWhole) (arg3 : Memref sig .tc .vmem S1x2048x64 .f32) (harg3 : arg3.IsWhole)
    (arg4 : Memref sig .tc .vmem S1x2048x64 .f32) (harg4 : arg4.IsWhole) (arg5 : Memref sig .tc .vmem S1x1024x1 .f32) (harg5 : arg5.IsWhole)
    (arg6 : Memref sig .tc .vmem S1x2048x1 .f32) (harg6 : arg6.IsWhole) (arg7 : Memref sig .tc .vmem S1x1x2048 .f32) (harg7 : arg7.IsWhole)
    (arg8 : Memref sig .tc .vmem S1x1024x64 .f32) (harg8 : arg8.IsWhole)
    (x0 : Vec F S1x1024x64 .f32) (x1 x2 : Vec F S1x2048x64 .f32) (x3 : Vec F S1x1024x1 .f32) (x4 : Vec F S1x2048x1 .f32)
    (x5 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outTile x0 x1 x2 x3 x4 x5)) -∗ K ⟨⟩))
      ⊢ wp frame (wpE (defs₀ (F := F)) Variants.none c none) E
          (cc0_kernel i arg2 harg2 arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover_out _)

end Cert.Kernel.Hand

end
-- ==== Proof.KernelRun.lean ====
/-
  The launch of the one pallas_call, and what its run leaves in memory.

  The proof data: each array at its region-entry contents; after the body each input window's buffer at its block and
  the output window's at the tile computed from the six input blocks; nothing carried between points. The query-mask
  window and the key-mask-column window stage ONE array (the mask with a unit last axis): its ownership is divided in
  two halves at the region's entry, one per window — both only read it — and the halves are joined again after the
  region. The reshape that follows the region reads the output array and writes the result.
-/
import proofs.«120666_j6957847019895_1_alg».proof.Proof.KernelBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: the arrays as the region finds them; after the body at point `t` each input's buffer
    at its block and the output's at the tile of the input blocks; the invariant is the scoped buffers no window stages
    (there is none: nothing is carried); nothing owed; the mask array's two windows hold one half of it each, every other
    input its whole array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outTile (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outTile (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## @main around the region -/

theorem hostOps0_fresh : (hostOps0 : List (HloOp τ sig (Elt F))).Forall fun op => op.fresh = ∅ := by
  simp only [List.Forall]; repeat' constructor

/-- @main is the seven host operations, the region, then the closing reshape: it reduces to the region continued by the
    reshape, entered at the contents after the seven. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The mask array divided between its two windows -/

/-- At the region's entry the six distinct buffers behind the seven windows, each held whole, make the pipeline's
    arrays: the mask-column buffer is divided into two halves, one for the query-mask window and one for the
    key-mask window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Pipeline.Dat.arrays
  rw [bigSep_eq_bigSepL_of_eq [main_v0, main_v1, main_v2, main_v5, main_v6, main_v7] (by decide) (by decide), bigSep_W0]
  have e : ∀ w : Fin 7, (View.loc (c : Thread nD τ) (cfg0.win w).arr.view ↦[(cfg0.win w).arr.view.set]{(dats m 0 c).share w}
        (dats m 0 c).arrAt w 0 : sProp 𝕄)
      = (((c : Thread nD τ).loc (Pipeline.arrRef spec0 w)) ↦{(dats m 0 c).share w} V m c (Pipeline.arrRef spec0 w)) := fun w => by
    rw [(arr_whole0 w).set_eq_univ]; rfl
  beta_reduce
  rw [e 0, e 1, e 2, e 3, e 4, e 5, e 6]
  rw [show (dats m 0 c).share 0 = fullShare from rfl, show (dats m 0 c).share 1 = fullShare from rfl,
    show (dats m 0 c).share 2 = fullShare from rfl, show (dats m 0 c).share 3 = fullShare.left from rfl,
    show (dats m 0 c).share 4 = fullShare.right from rfl, show (dats m 0 c).share 5 = fullShare from rfl,
    show (dats m 0 c).share 6 = fullShare from rfl]
  refine (Entails.of_eq (show (bigSepL [main_v0, main_v1, main_v2, main_v5, main_v6, main_v7]
      fun b => (((c : Thread nD τ).loc b) ↦{fullShare} V m c b : sProp 𝕄))
    = iprop((((c : Thread nD τ).loc main_v0) ↦{fullShare} V m c main_v0) ∗ (((c : Thread nD τ).loc main_v1) ↦{fullShare} V m c main_v1)
        ∗ (((c : Thread nD τ).loc main_v2) ↦{fullShare} V m c main_v2) ∗ (((c : Thread nD τ).loc main_v5) ↦{fullShare} V m c main_v5)
        ∗ (((c : Thread nD τ).loc main_v6) ↦{fullShare} V m c main_v6) ∗ (((c : Thread nD τ).loc main_v7) ↦{fullShare} V m c main_v7)) from rfl)).trans ?_
  iintro ⟨H0, H1, H2, H5, H6, H7⟩
  ihave H5' := (pointsTo_share (PosShare.mem_left_op_right fullShare)).1 $$ H5
  icases H5' with ⟨H5a, H5b⟩
  isplitl [H0]; · iexact H0
  isplitl [H1]; · iexact H1
  isplitl [H2]; · iexact H2
  isplitl [H5a]; · iexact H5a
  isplitl [H5b]; · iexact H5b
  isplitl [H6]; · iexact H6
  iexact H7

/-! ## The closing reshape, after the region -/

/-- Buffer contents at the region's exit: the output array at what the pipeline's write-backs leave, every other buffer
    as the region found it. -/
def Wx (c : Dev nD) : Valuation τ sig (Elt F) := fun b =>
  if h : Proc.devRef .tc main_v7 = b then
    cast (congrArg (fun b' : DevRef τ sig => b'.ty.Contents (Elt F)) h) ((dats m 0 c).arrAt 6 cfg0.N)
  else V0 m c b

theorem Wx_out (c : Dev nD) : Wx m c (Proc.devRef .tc main_v7) = (dats m 0 c).arrAt 6 cfg0.N := by
  unfold Wx; rw [dif_pos rfl]; rfl

theorem Wx_other (c : Dev nD) (b : Ref sig .tc) (hb : main_v7 ≠ b) : Wx m c (Proc.devRef .tc b) = V m c b := by
  unfold Wx; rw [dif_neg (StableHlo.devRef_ne_of_ne hb)]

/-- The result buffer after the closing reshape. -/
def res (c : Dev nD) : Buf (Elt F) ((c : Thread nD τ).loc main_v8) := StableHlo.after hostOps1 (Wx m c) (Proc.devRef .tc main_v8)

/-- What bypasses the region, after the closing reshape: the four arguments and the two mask intermediates as the region
    found them, the result buffer at the reshape of the output array. -/
def Zx (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)
    ∗ (((c : Thread nD τ).loc main_v3) ↦{fullShare} V m c main_v3) ∗ (((c : Thread nD τ).loc main_v4) ↦{fullShare} V m c main_v4)
    ∗ (((c : Thread nD τ).loc main_v8) ↦{fullShare} res m c))

/-- The two buffers the closing reshape touches, held at a valuation. -/
theorem held_two (c : Dev nD) (W : Valuation τ sig (Elt F)) :
    (StableHlo.held (c : Thread nD τ) {Proc.devRef .tc main_v7, Proc.devRef .tc main_v8} W : sProp 𝕄)
      = iprop((((c : Thread nD τ).1, Proc.devRef .tc main_v7) ↦{fullShare} W (Proc.devRef .tc main_v7))
          ∗ (((c : Thread nD τ).1, Proc.devRef .tc main_v8) ↦{fullShare} W (Proc.devRef .tc main_v8))) := by
  unfold StableHlo.held
  rw [bigSep_insert (by rw [Finset.mem_singleton]; exact StableHlo.devRef_ne_of_ne (by decide)), bigSep_singleton]
  rfl

set_option backward.isDefEq.respectTransparency.types false in
/-- From the region's exit the closing reshape runs holding the output array and the result buffer, and hands back the
    arrays untouched and the result buffer at the reshape of the output array. -/
theorem htail (c : Dev nD) (Q' : PUnit → sProp 𝕄) :
    iprop((iprop((dats m 0 c).arrays ((dats m 0 c).arrAt · cfg0.N) ∗ Zx m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ
          (Pipeline.chain [StableHlo.seq hostOps1]) Q' := by
  rw [unscopedRest0_eq c (V m c)]
  unfold Zx Pipeline.Dat.arrays
  rw [bigSep_W0]
  beta_reduce
  have e6 : (View.loc (c : Thread nD τ) (cfg0.win 6).arr.view ↦[(cfg0.win 6).arr.view.set]{(dats m 0 c).share 6}
        (dats m 0 c).arrAt 6 cfg0.N : sProp 𝕄)
      = (((c : Thread nD τ).1, Proc.devRef .tc main_v7) ↦{fullShare} Wx m c (Proc.devRef .tc main_v7)) := by
    rw [(arr_whole0 6).set_eq_univ, Wx_out]; rfl
  have e8 : ((((c : Thread nD τ).loc main_v8) ↦{fullShare} V m c main_v8) : sProp 𝕄)
      = (((c : Thread nD τ).1, Proc.devRef .tc main_v8) ↦{fullShare} Wx m c (Proc.devRef .tc main_v8)) := by
    rw [Wx_other m c main_v8 (by decide)]
  rw [e6, e8]
  have hW' : (StableHlo.held (c : Thread nD τ) {Proc.devRef .tc main_v7, Proc.devRef .tc main_v8}
        (StableHlo.after ([hostOps1] : List (List (HloOp τ sig (Elt F)))).flatten (Wx m c)) : sProp 𝕄)
      = iprop((((c : Thread nD τ).1, Proc.devRef .tc main_v7) ↦{fullShare} Wx m c (Proc.devRef .tc main_v7))
          ∗ (((c : Thread nD τ).loc main_v8) ↦{fullShare} res m c)) := by
    rw [held_two, show ([hostOps1] : List (List (HloOp τ sig (Elt F)))).flatten = hostOps1 from rfl,
      StableHlo.after_of_forall_not_mem (b := Proc.devRef .tc main_v7) hostOps1 (Wx m c) (by
        intro op hop
        simp only [List.mem_cons, List.mem_nil_iff, or_false] at hop
        subst hop
        rw [StableHlo.reshape_writes, Finset.mem_singleton]
        exact StableHlo.devRef_ne_of_ne (by decide))]
    rfl
  show _ ⊢ wp frame _ Set.univ (Pipeline.chain (([hostOps1] : List (List (HloOp τ sig (Elt F)))).map StableHlo.seq ++ [])) Q'
  iintro ⟨Hk, Hb, ⟨A0, A1, A2, A3, A4, A5, A6⟩, ⟨R0, R1, R2, R3, R4, R5, R8⟩⟩
  ihave Hh := (Entails.of_eq (held_two c (Wx m c)).symm) $$ [A6 R8]
  · isplitl [A6]; · iexact A6
    iexact R8
  iapply (Pipeline.wp_seqs_then (pcfgs (F := F)) defs₀ Variants.none c {Proc.devRef .tc main_v7, Proc.devRef .tc main_v8} [] [hostOps1]
    (by
      intro ops hops op hop
      simp only [List.mem_cons, List.mem_nil_iff, or_false] at hops
      subst hops
      simp only [List.mem_cons, List.mem_nil_iff, or_false] at hop
      subst hop
      rw [StableHlo.reshape_bufs])
    (by
      intro ops hops op hop
      simp only [List.mem_cons, List.mem_nil_iff, or_false] at hops
      subst hops
      simp only [List.mem_cons, List.mem_nil_iff, or_false] at hop
      subst hop
      rfl) (Wx m c)) $$ [Hb Hh]
  · isplitl [Hb]; · iexact Hb
    iexact Hh
  iintro Hb
  rw [Pipeline.chain_nil, wp_pure, hW']
  imodintro
  iapply Hk
  icases Hb with ⟨-, A6, R8⟩
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [R0]; · iexact R0
  isplitl [R1]; · iexact R1
  isplitl [R2]; · iexact R2
  isplitl [R3]; · iexact R3
  isplitl [R4]; · iexact R4
  isplitl [R5]; · iexact R5
  iexact R8

/-! ## The run -/

/-- The invariant of the region: the scoped buffers no window stages (none). -/
abbrev Φs (c : Dev nD) : sProp 𝕄 :=
  Pipeline.scopedRest (Ix := Unit) (Name := ℕ) (U := UR sig nD τ) (Lvl := ℕ) (Val := Elt F) spec0 c

/-- What a final memory holds: every array of the pipeline at what the write-backs leave of the proof data, the four
    arguments as the region found them, the result at the reshape of the output array. -/
def Post (r : PUnit × MemSt nD τ sig (Elt F)) : Prop :=
  ∀ c : Dev nD, (∀ w : Fin cfg0.W, r.2.mem ((cfg0.win w).arr.view.loc (c : Thread nD τ)) = (dats m 0 c).arrAt w cfg0.N)
    ∧ r.2.mem ((c : Thread nD τ).loc main_arg0) = V m c main_arg0
    ∧ r.2.mem ((c : Thread nD τ).loc main_arg1) = V m c main_arg1
    ∧ r.2.mem ((c : Thread nD τ).loc main_arg2) = V m c main_arg2
    ∧ r.2.mem ((c : Thread nD τ).loc main_arg3) = V m c main_arg3
    ∧ r.2.mem ((c : Thread nD τ).loc main_v8) = res m c

set_option backward.isDefEq.respectTransparency.types false in
/-- At the compiled mesh, for any float values, from any memory with zero counters: every weakly fair execution of @main
    on the TensorCores terminates, nothing faulting, in a memory as `Post` says. The launch is the library's for a kernel
    with no semaphore of its own whose windows may share arrays, continued by the closing reshape. -/
theorem run_main : θ_run defs (onTc (τ := τ) (main (F := F))) (s₀ m ρ) (Post m) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := Zx m)
    (hX := fun c => by
      rw [Pipeline.unscopedRestP_none]
      iintro H
      isplitr; · iempintro
      iexact H)
    (hin := fun c => by
      rw [show (dats m 0 c).Φ 0 = Φs c from rfl]
      iintro ⟨-, -, H⟩
      iexact H)
    (hout := fun c => by
      rw [show (dats m 0 c).Φ (Fin.last cfg0.N) = Φs c from rfl]
      iintro H
      isplitr; · iempintro
      iexact H)
    (htail := htail m)
    (QY := fun c s => s.mem ((c : Thread nD τ).loc main_arg0) = V m c main_arg0
      ∧ s.mem ((c : Thread nD τ).loc main_arg1) = V m c main_arg1
      ∧ s.mem ((c : Thread nD τ).loc main_arg2) = V m c main_arg2
      ∧ s.mem ((c : Thread nD τ).loc main_arg3) = V m c main_arg3
      ∧ s.mem ((c : Thread nD τ).loc main_v8) = res m c)
    (hY := fun c s' => by
      unfold Zx
      iintro ⟨-, ⟨R0, R1, R2, R3, -, -, R8⟩, HSI⟩
      icombine HSI R0 gives %h0
      icombine HSI R1 gives %h1
      icombine HSI R2 gives %h2
      icombine HSI R3 gives %h3
      icombine HSI R8 gives %h8
      imodintro
      isplitr
      · ipureintro
        exact ⟨Buf.eq_of_forall_mem_univ h0, Buf.eq_of_forall_mem_univ h1, Buf.eq_of_forall_mem_univ h2,
          Buf.eq_of_forall_mem_univ h3, Buf.eq_of_forall_mem_univ h8⟩
      iexact HSI)
    (hQ := fun s h c => ⟨(h c).1, (h c).2.2⟩)

/-- info: 'Cert.Kernel.Hand.run_main' depends on axioms: [propext, Classical.choice, Quot.sound] -/
#guard_msgs in #print axioms run_main

/-! ## The frame -/

/-- None of the seven host operations before the region writes an argument. -/
theorem not_written (b : Ref sig .tc)
    (hb : b ≠ main_v0 ∧ b ≠ main_v1 ∧ b ≠ main_v2 ∧ b ≠ main_v3 ∧ b ≠ main_v4 ∧ b ≠ main_v5 ∧ b ≠ main_v6) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.reshape_writes, Finset.mem_singleton] <;>
    exact StableHlo.devRef_ne_of_ne ‹_›

/-- So each argument reaches the region as launched. -/
theorem V_arg (c : Dev nD) (b : Ref sig .tc)
    (hb : b ≠ main_v0 ∧ b ≠ main_v1 ∧ b ≠ main_v2 ∧ b ≠ main_v3 ∧ b ≠ main_v4 ∧ b ≠ main_v5 ∧ b ≠ main_v6) :
    V m c b = m ((c : Thread nD τ).loc b) :=
  StableHlo.after_of_forall_not_mem (b := Proc.devRef .tc b) hostOps0 (fun b => m (c, b)) (not_written b hb)

/-- THE FRAME: every weakly fair execution terminates without a fault, and the four argument arrays end as launched
    (no host operation and no write-back touches them; the closing reshape writes the result buffer only). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2.1.trans (V_arg m c main_arg0 (by decide)),
      (h c).2.2.1.trans (V_arg m c main_arg1 (by decide)), (h c).2.2.2.1.trans (V_arg m c main_arg2 (by decide)),
      (h c).2.2.2.2.1.trans (V_arg m c main_arg3 (by decide))⟩) (run_main m ρ)

end Cert.Kernel.Hand

end
-- ==== Proof.KernelIdealBody.lean ====
/-
  The kernel's body at one grid point, and the pipeline's proof data.

  A grid point (bh, qi) of the 24 × 2 grid is handed seven staging buffers: a 1024-row tile of Q and of the query mask,
  the whole 2048-row K, V, key-mask column and key-mask row of the batch-head bh, and the 1024-row output tile. The body
  loads the six inputs whole, computes one 1024 × 64 tile and stores it over the whole output buffer; it keeps nothing
  between points. So after the body each input buffer still holds its block of the array behind it, and the output
  buffer holds one pure function (`outTile`) of the six input blocks. The key-mask column and the query-mask tile are
  two windows on ONE array; nothing here depends on that (the staging buffers are distinct) — it matters only at the
  launch, where that array's ownership is divided between the two windows.
-/
import proofs.«120666_j6957847019895_1_alg».proof.Proof.Gen.KernelIdeal.Launch
import proofs.«120666_j6957847019895_1_alg».proof.Proof.Gen.KernelIdeal.Skeleton
import proofs.«120666_j6957847019895_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch contents after the seven host operations
    (three reshapes of Q, K, V to 24 batch-heads, the mask repeated over the heads and given its two unit axes). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a window whose
    block index ignores the q-tile coordinate is fetched at every second point only: between two fetches the index has
    not moved), for any proof data whose array is the region-entry contents and whose body leaves the block in place.
    Stated window by window: the block's index type computes only at a literal window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

abbrev rQ : Rect S1x1024x64 := Rect.unit (s := S1x1024x64) ![0, 0, 0] S1x1024x64.size inb_S1x1024x64_S1x1024x64_0_0_0
abbrev rK : Rect S1x2048x64 := Rect.unit (s := S1x2048x64) ![0, 0, 0] S1x2048x64.size inb_S1x2048x64_S1x2048x64_0_0_0
abbrev rMq : Rect S1x1024x1 := Rect.unit (s := S1x1024x1) ![0, 0, 0] S1x1024x1.size inb_S1x1024x1_S1x1024x1_0_0_0
abbrev rMc : Rect S1x2048x1 := Rect.unit (s := S1x2048x1) ![0, 0, 0] S1x2048x1.size inb_S1x2048x1_S1x2048x1_0_0_0
abbrev rMr : Rect S1x1x2048 := Rect.unit (s := S1x1x2048) ![0, 0, 0] S1x1x2048.size inb_S1x1x2048_S1x1x2048_0_0_0

/-- The tile the body computes from its six loads: the skeleton's payloads composed — the scaled and masked Q tile and
    K, their half squared row norms, the score matrix, the mask penalty, and the product of the exponentials with V. -/
def tile (q : Vec F S1x1024x64 .f32) (k v : Vec F S1x2048x64 .f32) (mq : Vec F S1x1024x1 .f32) (mc : Vec F S1x2048x1 .f32)
    (mr : Vec F S1x1x2048 .f32) : FVec F S1x1024x64 .f32 :=
  k0_pay1 (k0_pay4 q mq) (k0_pay5 k mc) (k0_pay6 q mq k mc) (k0_pay7 mr) v

/-- The output window's staging buffer after the body, from the input windows' blocks: its one store, over the whole buffer. -/
def outTile (x0 : Vec F S1x1024x64 .f32) (x1 x2 : Vec F S1x2048x64 .f32) (x3 : Vec F S1x1024x1 .f32) (x4 : Vec F S1x2048x1 .f32)
    (x5 : Vec F S1x1x2048 .f32) : Vec F S1x1024x64 .f32 :=
  View.canon [⟨rQ, tile (View.ld x0 rQ) (View.ld x1 rK) (View.ld x2 rK) (View.ld x3 rMq) (View.ld x4 rMc) (View.ld x5 rMr)⟩]

/-- The store covers the buffer. -/
theorem cover_out (p0 : Vec F S1x1024x64 .f32) (y : S1x1024x64.Idx) :
    ∃ pc ∈ ([⟨rQ, p0⟩] : List (View.Piece (Elt F) S1x1024x64 .f32)), y ∈ pc.1.set :=
  View.cover_of_tiled [⟨rQ, p0⟩] S1x1024x64.size (by rfl) y

/-! ## The body's triple -/

set_option maxHeartbeats 4000000 in
/-- The kernel body on whole staging memrefs, the inputs' at read contents and the output's at anything, runs to the
    continuation holding the inputs' as they were and the output's at `outTile` of the inputs'. -/
theorem sound_kernel (c : Dev nD) (E : Set ℕ) (i : grid0.Coords)
    (arg2 : Memref sig .tc .vmem S1x1024x64 .f32) (harg2 : arg2.IsWhole) (arg3 : Memref sig .tc .vmem S1x2048x64 .f32) (harg3 : arg3.IsWhole)
    (arg4 : Memref sig .tc .vmem S1x2048x64 .f32) (harg4 : arg4.IsWhole) (arg5 : Memref sig .tc .vmem S1x1024x1 .f32) (harg5 : arg5.IsWhole)
    (arg6 : Memref sig .tc .vmem S1x2048x1 .f32) (harg6 : arg6.IsWhole) (arg7 : Memref sig .tc .vmem S1x1x2048 .f32) (harg7 : arg7.IsWhole)
    (arg8 : Memref sig .tc .vmem S1x1024x64 .f32) (harg8 : arg8.IsWhole)
    (x0 : Vec F S1x1024x64 .f32) (x1 x2 : Vec F S1x2048x64 .f32) (x3 : Vec F S1x1024x1 .f32) (x4 : Vec F S1x2048x1 .f32)
    (x5 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outTile x0 x1 x2 x3 x4 x5)) -∗ K ⟨⟩))
      ⊢ wp frame (wpE (defs₀ (F := F)) Variants.none c none) E
          (cc0_kernel i arg2 harg2 arg3 harg3 arg4 harg4 arg5 harg5 arg6 harg6 arg7 harg7 arg8 harg8) K := by
  simp only [cc0_kernel_eq_skeleton]; unfold cc0_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover_out _)

end Cert.KernelIdeal.Hand

end
-- ==== Proof.KernelIdealRun.lean ====
/-
  The launch of the one pallas_call, and what its run leaves in memory.

  The proof data: each array at its region-entry contents; after the body each input window's buffer at its block and
  the output window's at the tile computed from the six input blocks; nothing carried between points. The query-mask
  window and the key-mask-column window stage ONE array (the mask with a unit last axis): its ownership is divided in
  two halves at the region's entry, one per window — both only read it — and the halves are joined again after the
  region. The reshape that follows the region reads the output array and writes the result.
-/
import proofs.«120666_j6957847019895_1_alg».proof.Proof.KernelIdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data on core `c`: the arrays as the region finds them; after the body at point `t` each input's buffer
    at its block and the output's at the tile of the input blocks; the invariant is the scoped buffers no window stages
    (there is none: nothing is carried); nothing owed; the mask array's two windows hold one half of it each, every other
    input its whole array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outTile (iblk m c 0 t) (iblk m c 1 t) (iblk m c 2 t) (iblk m c 3 t) (iblk m c 4 t) (iblk m c 5 t)
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = outTile (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## @main around the region -/

theorem hostOps0_fresh : (hostOps0 : List (HloOp τ sig (Elt F))).Forall fun op => op.fresh = ∅ := by
  simp only [List.Forall]; repeat' constructor

/-- @main is the seven host operations, the region, then the closing reshape: it reduces to the region continued by the
    reshape, entered at the contents after the seven. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The mask array divided between its two windows -/

/-- At the region's entry the six distinct buffers behind the seven windows, each held whole, make the pipeline's
    arrays: the mask-column buffer is divided into two halves, one for the query-mask window and one for the
    key-mask window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Pipeline.Dat.arrays
  rw [bigSep_eq_bigSepL_of_eq [main_v0, main_v1, main_v2, main_v5, main_v6, main_v7] (by decide) (by decide), bigSep_W0]
  have e : ∀ w : Fin 7, (View.loc (c : Thread nD τ) (cfg0.win w).arr.view ↦[(cfg0.win w).arr.view.set]{(dats m 0 c).share w}
        (dats m 0 c).arrAt w 0 : sProp 𝕄)
      = (((c : Thread nD τ).loc (Pipeline.arrRef spec0 w)) ↦{(dats m 0 c).share w} V m c (Pipeline.arrRef spec0 w)) := fun w => by
    rw [(arr_whole0 w).set_eq_univ]; rfl
  beta_reduce
  rw [e 0, e 1, e 2, e 3, e 4, e 5, e 6]
  rw [show (dats m 0 c).share 0 = fullShare from rfl, show (dats m 0 c).share 1 = fullShare from rfl,
    show (dats m 0 c).share 2 = fullShare from rfl, show (dats m 0 c).share 3 = fullShare.left from rfl,
    show (dats m 0 c).share 4 = fullShare.right from rfl, show (dats m 0 c).share 5 = fullShare from rfl,
    show (dats m 0 c).share 6 = fullShare from rfl]
  refine (Entails.of_eq (show (bigSepL [main_v0, main_v1, main_v2, main_v5, main_v6, main_v7]
      fun b => (((c : Thread nD τ).loc b) ↦{fullShare} V m c b : sProp 𝕄))
    = iprop((((c : Thread nD τ).loc main_v0) ↦{fullShare} V m c main_v0) ∗ (((c : Thread nD τ).loc main_v1) ↦{fullShare} V m c main_v1)
        ∗ (((c : Thread nD τ).loc main_v2) ↦{fullShare} V m c main_v2) ∗ (((c : Thread nD τ).loc main_v5) ↦{fullShare} V m c main_v5)
        ∗ (((c : Thread nD τ).loc main_v6) ↦{fullShare} V m c main_v6) ∗ (((c : Thread nD τ).loc main_v7) ↦{fullShare} V m c main_v7)) from rfl)).trans ?_
  iintro ⟨H0, H1, H2, H5, H6, H7⟩
  ihave H5' := (pointsTo_share (PosShare.mem_left_op_right fullShare)).1 $$ H5
  icases H5' with ⟨H5a, H5b⟩
  isplitl [H0]; · iexact H0
  isplitl [H1]; · iexact H1
  isplitl [H2]; · iexact H2
  isplitl [H5a]; · iexact H5a
  isplitl [H5b]; · iexact H5b
  isplitl [H6]; · iexact H6
  iexact H7

/-! ## The closing reshape, after the region -/

/-- Buffer contents at the region's exit: the output array at what the pipeline's write-backs leave, every other buffer
    as the region found it. -/
def Wx (c : Dev nD) : Valuation τ sig (Elt F) := fun b =>
  if h : Proc.devRef .tc main_v7 = b then
    cast (congrArg (fun b' : DevRef τ sig => b'.ty.Contents (Elt F)) h) ((dats m 0 c).arrAt 6 cfg0.N)
  else V0 m c b

theorem Wx_out (c : Dev nD) : Wx m c (Proc.devRef .tc main_v7) = (dats m 0 c).arrAt 6 cfg0.N := by
  unfold Wx; rw [dif_pos rfl]; rfl

theorem Wx_other (c : Dev nD) (b : Ref sig .tc) (hb : main_v7 ≠ b) : Wx m c (Proc.devRef .tc b) = V m c b := by
  unfold Wx; rw [dif_neg (StableHlo.devRef_ne_of_ne hb)]

/-- The result buffer after the closing reshape. -/
def res (c : Dev nD) : Buf (Elt F) ((c : Thread nD τ).loc main_v8) := StableHlo.after hostOps1 (Wx m c) (Proc.devRef .tc main_v8)

/-- What bypasses the region, after the closing reshape: the four arguments and the two mask intermediates as the region
    found them, the result buffer at the reshape of the output array. -/
def Zx (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3)
    ∗ (((c : Thread nD τ).loc main_v3) ↦{fullShare} V m c main_v3) ∗ (((c : Thread nD τ).loc main_v4) ↦{fullShare} V m c main_v4)
    ∗ (((c : Thread nD τ).loc main_v8) ↦{fullShare} res m c))

/-- The two buffers the closing reshape touches, held at a valuation. -/
theorem held_two (c : Dev nD) (W : Valuation τ sig (Elt F)) :
    (StableHlo.held (c : Thread nD τ) {Proc.devRef .tc main_v7, Proc.devRef .tc main_v8} W : sProp 𝕄)
      = iprop((((c : Thread nD τ).1, Proc.devRef .tc main_v7) ↦{fullShare} W (Proc.devRef .tc main_v7))
          ∗ (((c : Thread nD τ).1, Proc.devRef .tc main_v8) ↦{fullShare} W (Proc.devRef .tc main_v8))) := by
  unfold StableHlo.held
  rw [bigSep_insert (by rw [Finset.mem_singleton]; exact StableHlo.devRef_ne_of_ne (by decide)), bigSep_singleton]
  rfl

set_option backward.isDefEq.respectTransparency.types false in
/-- From the region's exit the closing reshape runs holding the output array and the result buffer, and hands back the
    arrays untouched and the result buffer at the reshape of the output array. -/
theorem htail (c : Dev nD) (Q' : PUnit → sProp 𝕄) :
    iprop((iprop((dats m 0 c).arrays ((dats m 0 c).arrAt · cfg0.N) ∗ Zx m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (defs (F := F)) (Variants.lift Variants.none) (c : Thread nD τ) none) Set.univ
          (Pipeline.chain [StableHlo.seq hostOps1]) Q' := by
  rw [unscopedRest0_eq c (V m c)]
  unfold Zx Pipeline.Dat.arrays
  rw [bigSep_W0]
  beta_reduce
  have e6 : (View.loc (c : Thread nD τ) (cfg0.win 6).arr.view ↦[(cfg0.win 6).arr.view.set]{(dats m 0 c).share 6}
        (dats m 0 c).arrAt 6 cfg0.N : sProp 𝕄)
      = (((c : Thread nD τ).1, Proc.devRef .tc main_v7) ↦{fullShare} Wx m c (Proc.devRef .tc main_v7)) := by
    rw [(arr_whole0 6).set_eq_univ, Wx_out]; rfl
  have e8 : ((((c : Thread nD τ).loc main_v8) ↦{fullShare} V m c main_v8) : sProp 𝕄)
      = (((c : Thread nD τ).1, Proc.devRef .tc main_v8) ↦{fullShare} Wx m c (Proc.devRef .tc main_v8)) := by
    rw [Wx_other m c main_v8 (by decide)]
  rw [e6, e8]
  have hW' : (StableHlo.held (c : Thread nD τ) {Proc.devRef .tc main_v7, Proc.devRef .tc main_v8}
        (StableHlo.after ([hostOps1] : List (List (HloOp τ sig (Elt F)))).flatten (Wx m c)) : sProp 𝕄)
      = iprop((((c : Thread nD τ).1, Proc.devRef .tc main_v7) ↦{fullShare} Wx m c (Proc.devRef .tc main_v7))
          ∗ (((c : Thread nD τ).loc main_v8) ↦{fullShare} res m c)) := by
    rw [held_two, show ([hostOps1] : List (List (HloOp τ sig (Elt F)))).flatten = hostOps1 from rfl,
      StableHlo.after_of_forall_not_mem (b := Proc.devRef .tc main_v7) hostOps1 (Wx m c) (by
        intro op hop
        simp only [List.mem_cons, List.mem_nil_iff, or_false] at hop
        subst hop
        rw [StableHlo.reshape_writes, Finset.mem_singleton]
        exact StableHlo.devRef_ne_of_ne (by decide))]
    rfl
  show _ ⊢ wp frame _ Set.univ (Pipeline.chain (([hostOps1] : List (List (HloOp τ sig (Elt F)))).map StableHlo.seq ++ [])) Q'
  iintro ⟨Hk, Hb, ⟨A0, A1, A2, A3, A4, A5, A6⟩, ⟨R0, R1, R2, R3, R4, R5, R8⟩⟩
  ihave Hh := (Entails.of_eq (held_two c (Wx m c)).symm) $$ [A6 R8]
  · isplitl [A6]; · iexact A6
    iexact R8
  iapply (Pipeline.wp_seqs_then (pcfgs (F := F)) defs₀ Variants.none c {Proc.devRef .tc main_v7, Proc.devRef .tc main_v8} [] [hostOps1]
    (by
      intro ops hops op hop
      simp only [List.mem_cons, List.mem_nil_iff, or_false] at hops
      subst hops
      simp only [List.mem_cons, List.mem_nil_iff, or_false] at hop
      subst hop
      rw [StableHlo.reshape_bufs])
    (by
      intro ops hops op hop
      simp only [List.mem_cons, List.mem_nil_iff, or_false] at hops
      subst hops
      simp only [List.mem_cons, List.mem_nil_iff, or_false] at hop
      subst hop
      rfl) (Wx m c)) $$ [Hb Hh]
  · isplitl [Hb]; · iexact Hb
    iexact Hh
  iintro Hb
  rw [Pipeline.chain_nil, wp_pure, hW']
  imodintro
  iapply Hk
  icases Hb with ⟨-, A6, R8⟩
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [R0]; · iexact R0
  isplitl [R1]; · iexact R1
  isplitl [R2]; · iexact R2
  isplitl [R3]; · iexact R3
  isplitl [R4]; · iexact R4
  isplitl [R5]; · iexact R5
  iexact R8

/-! ## The run -/

/-- The invariant of the region: the scoped buffers no window stages (none). -/
abbrev Φs (c : Dev nD) : sProp 𝕄 :=
  Pipeline.scopedRest (Ix := Unit) (Name := ℕ) (U := UR sig nD τ) (Lvl := ℕ) (Val := Elt F) spec0 c

/-- What a final memory holds: every array of the pipeline at what the write-backs leave of the proof data, the four
    arguments as the region found them, the result at the reshape of the output array. -/
def Post (r : PUnit × MemSt nD τ sig (Elt F)) : Prop :=
  ∀ c : Dev nD, (∀ w : Fin cfg0.W, r.2.mem ((cfg0.win w).arr.view.loc (c : Thread nD τ)) = (dats m 0 c).arrAt w cfg0.N)
    ∧ r.2.mem ((c : Thread nD τ).loc main_arg0) = V m c main_arg0
    ∧ r.2.mem ((c : Thread nD τ).loc main_arg1) = V m c main_arg1
    ∧ r.2.mem ((c : Thread nD τ).loc main_arg2) = V m c main_arg2
    ∧ r.2.mem ((c : Thread nD τ).loc main_arg3) = V m c main_arg3
    ∧ r.2.mem ((c : Thread nD τ).loc main_v8) = res m c

set_option backward.isDefEq.respectTransparency.types false in
/-- At the compiled mesh, for any float values, from any memory with zero counters: every weakly fair execution of @main
    on the TensorCores terminates, nothing faulting, in a memory as `Post` says. The launch is the library's for a kernel
    with no semaphore of its own whose windows may share arrays, continued by the closing reshape. -/
theorem run_main : θ_run defs (onTc (τ := τ) (main (F := F))) (s₀ m ρ) (Post m) :=
  Pipeline.θ_run_region_noSem_pf_tail (fun p => (cfgs p).toPCfg) (fun p => (cfgs p).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := Zx m)
    (hX := fun c => by
      rw [Pipeline.unscopedRestP_none]
      iintro H
      isplitr; · iempintro
      iexact H)
    (hin := fun c => by
      rw [show (dats m 0 c).Φ 0 = Φs c from rfl]
      iintro ⟨-, -, H⟩
      iexact H)
    (hout := fun c => by
      rw [show (dats m 0 c).Φ (Fin.last cfg0.N) = Φs c from rfl]
      iintro H
      isplitr; · iempintro
      iexact H)
    (htail := htail m)
    (QY := fun c s => s.mem ((c : Thread nD τ).loc main_arg0) = V m c main_arg0
      ∧ s.mem ((c : Thread nD τ).loc main_arg1) = V m c main_arg1
      ∧ s.mem ((c : Thread nD τ).loc main_arg2) = V m c main_arg2
      ∧ s.mem ((c : Thread nD τ).loc main_arg3) = V m c main_arg3
      ∧ s.mem ((c : Thread nD τ).loc main_v8) = res m c)
    (hY := fun c s' => by
      unfold Zx
      iintro ⟨-, ⟨R0, R1, R2, R3, -, -, R8⟩, HSI⟩
      icombine HSI R0 gives %h0
      icombine HSI R1 gives %h1
      icombine HSI R2 gives %h2
      icombine HSI R3 gives %h3
      icombine HSI R8 gives %h8
      imodintro
      isplitr
      · ipureintro
        exact ⟨Buf.eq_of_forall_mem_univ h0, Buf.eq_of_forall_mem_univ h1, Buf.eq_of_forall_mem_univ h2,
          Buf.eq_of_forall_mem_univ h3, Buf.eq_of_forall_mem_univ h8⟩
      iexact HSI)
    (hQ := fun s h c => ⟨(h c).1, (h c).2.2⟩)

/-- info: 'Cert.KernelIdeal.Hand.run_main' depends on axioms: [propext, Classical.choice, Quot.sound] -/
#guard_msgs in #print axioms run_main

/-! ## The frame -/

/-- None of the seven host operations before the region writes an argument. -/
theorem not_written (b : Ref sig .tc)
    (hb : b ≠ main_v0 ∧ b ≠ main_v1 ∧ b ≠ main_v2 ∧ b ≠ main_v3 ∧ b ≠ main_v4 ∧ b ≠ main_v5 ∧ b ≠ main_v6) :
    ∀ op ∈ (hostOps0 (F := F)), Proc.devRef .tc b ∉ op.writes := by
  obtain ⟨h0, h1, h2, h3, h4, h5, h6⟩ := hb
  intro op hop
  simp only [List.mem_cons, List.mem_nil_iff, or_false] at hop
  rcases hop with rfl | rfl | rfl | rfl | rfl | rfl | rfl <;>
    simp only [StableHlo.unary_writes, StableHlo.reshape_writes, Finset.mem_singleton] <;>
    exact StableHlo.devRef_ne_of_ne ‹_›

/-- So each argument reaches the region as launched. -/
theorem V_arg (c : Dev nD) (b : Ref sig .tc)
    (hb : b ≠ main_v0 ∧ b ≠ main_v1 ∧ b ≠ main_v2 ∧ b ≠ main_v3 ∧ b ≠ main_v4 ∧ b ≠ main_v5 ∧ b ≠ main_v6) :
    V m c b = m ((c : Thread nD τ).loc b) :=
  StableHlo.after_of_forall_not_mem (b := Proc.devRef .tc b) hostOps0 (fun b => m (c, b)) (not_written b hb)

/-- THE FRAME: every weakly fair execution terminates without a fault, and the four argument arrays end as launched
    (no host operation and no write-back touches them; the closing reshape writes the result buffer only). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2.1.trans (V_arg m c main_arg0 (by decide)),
      (h c).2.2.1.trans (V_arg m c main_arg1 (by decide)), (h c).2.2.2.1.trans (V_arg m c main_arg2 (by decide)),
      (h c).2.2.2.2.1.trans (V_arg m c main_arg3 (by decide))⟩) (run_main m ρ)

end Cert.KernelIdeal.Hand

end
-- ==== Proof.Spec.lean ====
/-
  The function both programs compute, one output entry at a time.

  For a batch-head, write `a` for one row of the scaled, masked queries (`D` features), `b j` for row `j` of the scaled,
  masked keys, `μ j` for the mask at key position `j` and `v j` for one feature of the value at `j`. The output entry is

      ∑ j, exp (⟨a, b j⟩ − ½‖a‖² − ½‖b j‖² − 10⁹ · (1 − μ j)) · v j,

  the subtractions taken left to right, on the extended reals. The four constants are the f32 words the two programs share;
  they are never evaluated. The only place where the two programs differ arithmetically is how a scaled, masked row is
  grouped: the kernel multiplies `(x · mask) · s`, the reference `x · (mask · s)`; multiplication of extended reals is
  associative, so no finiteness is needed.
-/
import Idealize.ShloMosaic.PureOps.Ideal.Laws
import Idealize.ShloMosaic.Lib.ValueIdx

noncomputable section

open scoped BigOperators

namespace Cert.Rbf

open Idealize.ShloMosaic

/-- The feature scale, the f32 word of `64 ^ (-1/4)`. -/
abbrev scale : EReal := Ideal.ofBits .f32 0x3EB504F3#32
/-- One half. -/
abbrev half : EReal := Ideal.ofBits .f32 0x3F000000#32
/-- One. -/
abbrev one : EReal := Ideal.ofBits .f32 0x3F800000#32
/-- The mask penalty, the f32 word of `10⁹`. -/
abbrev big : EReal := Ideal.ofBits .f32 0x4E6E6B28#32

/-- One output entry from a query row `a`, the key rows `b`, the mask `μ` and one feature `v` of the values. -/
def entry {D N : ℕ} (a : Fin D → EReal) (b : Fin N → Fin D → EReal) (μ v : Fin N → EReal) : EReal :=
  ∑ j : Fin N, Ideal.exp ((((∑ d : Fin D, a d * b j d) - half * ∑ d : Fin D, a d * a d)
      - half * ∑ d : Fin D, b j d * b j d) - big * (one - μ j)) * v j

/-- One entry of the result from the four arguments: batch `b`, head `h`, query position `n`, feature `p`. The mask
    of a position scales that position's query and key rows, and penalises the position as a key. -/
def resultAt (Q K V : (⟨4, ![2, 12, 2048, 64]⟩ : Shape).Idx → EReal) (M : (⟨2, ![2, 2048]⟩ : Shape).Idx → EReal)
    (b : Fin 2) (h : Fin 12) (n : Fin 2048) (p : Fin 64) : EReal :=
  entry (fun d => (Q (ValueIdx.ix4 b h n d) * M (ValueIdx.ix2 b n)) * scale)
    (fun j d => (K (ValueIdx.ix4 b h j d) * M (ValueIdx.ix2 b j)) * scale)
    (fun j => M (ValueIdx.ix2 b j)) (fun j => V (ValueIdx.ix4 b h j p))

/-- The result array as one function of the four argument arrays. -/
def result (Q K V : (⟨4, ![2, 12, 2048, 64]⟩ : Shape).Idx → EReal) (M : (⟨2, ![2, 2048]⟩ : Shape).Idx → EReal) :
    (⟨4, ![2, 12, 2048, 64]⟩ : Shape).Idx → EReal :=
  fun i => resultAt Q K V M ⟨(i 0).val, (i 0).isLt⟩ ⟨(i 1).val, (i 1).isLt⟩ ⟨(i 2).val, (i 2).isLt⟩ ⟨(i 3).val, (i 3).isLt⟩

/-- The two groupings of a scaled, masked entry agree. -/
theorem scaled_assoc (x μ : EReal) : x * (μ * scale) = (x * μ) * scale := (mul_assoc x μ scale).symm

end Cert.Rbf

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibMatmulRows.lean ====
/-
  A matrix product whose right operand is given by rows.

  When the right operand of a `tpu.matmul` into the zero accumulator is the transpose of an `N × K` array `r`, the entry
  at row `p`, column `q` is, at the ideal values, the inner product of row `p` of the left operand with row `q` of `r`:
  the sum over `k` of `l (p, k) · r (q, k)`.
-/
import proofs.«120666_j6957847019895_1_alg».proof.Proof.LibPlainDot
import Idealize.ShloMosaic.Lib.ValueLayout

noncomputable section

open scoped BigOperators

namespace Cert.Lib.MatmulRows

open Idealize.ShloMosaic Idealize.ShloMosaic.ValueIdx

variable {M K N : Nat}

/-- The product with a transposed right operand, at entry `(p, q)`: the inner product of two rows. -/
theorem matmul_transposed_apply {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![N, K]⟩ φ₂)
    (ht : (⟨2, ![N, K]⟩ : Shape).Transposes [1, 0] ⟨2, ![K, N]⟩) (p : Fin M) (q : Fin N) :
    FloatOps.matmul D prec l (transpose ⟨2, ![K, N]⟩ [1, 0] r ht) (constant ⟨2, ![M, N]⟩ .f32 0x00000000#32) (ix2 p q)
      = ∑ k : Fin K, l (ix2 p k) * r (ix2 q k) := by
  subst hD
  rw [Cert.Lib.PlainDot.matmul_zero_apply]
  exact Finset.sum_congr rfl fun k _ => by rw [transpose_ix2_apply]

end Cert.Lib.MatmulRows

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«120666_j6957847019895_1_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibLeadAxes.lean ====
/-
  Arrays that differ by a leading unit axis, or by a split of the leading axis, read at an entry.

  A shape cast keeps the row-major position of every entry.
  * A `B × C` matrix viewed as a `1 × B × C` slab reads, at `(0, p, q)`, the matrix at `(p, q)` (`slab_apply`).
  * A rank-three array re-read at rank four holds, at each index, the entry with the same row-major position
    (`three_four_apply`): splitting the leading axis `a·b` of an `(a·b) × c × d` array into `a × b` sends `(i, j, k, l)`
    to `(i·b + j, k, l)`.
-/
import Idealize.ShloMosaic.Lib.ValueIdx
import Idealize.ShloMosaic.Lib.Pipeline.Value

noncomputable section

namespace Cert.Lib.LeadAxes

open Idealize.ShloMosaic Idealize.ShloMosaic.ValueIdx

variable {α : Type}

/-- A `B × C` matrix viewed as a `1 × B × C` slab: entry `(0, p, q)` is entry `(p, q)`. -/
theorem slab_apply {B C : ℕ} (v : (⟨2, ![B, C]⟩ : Shape).Idx → α) (h : (⟨2, ![B, C]⟩ : Shape).ShapeCasts ⟨3, ![1, B, C]⟩)
    (p : Fin B) (q : Fin C) : shapeCast ⟨3, ![1, B, C]⟩ v h (ix3 (0 : Fin 1) p q) = v (ix2 p q) :=
  shapeCast_apply v h (ix3 (0 : Fin 1) p q) (ix2 p q) (by
    rw [Shape.rowMajor_val_two, Shape.rowMajor_val_three]
    show p.val * C + q.val = (0 * B + p.val) * C + q.val
    rw [Nat.zero_mul, Nat.zero_add])

/-- A rank-three array re-read at rank four: entry `(i, h, p, d)` of the result is the operand at the index
    `(i', l, e)` with the same row-major position. -/
theorem three_four_apply {a0 a1 a2 b0 b1 b2 b3 : ℕ} (x : (⟨3, ![a0, a1, a2]⟩ : Shape).Idx → α)
    (hc : (⟨3, ![a0, a1, a2]⟩ : Shape).ShapeCasts ⟨4, ![b0, b1, b2, b3]⟩)
    (i : Fin b0) (h : Fin b1) (p : Fin b2) (d : Fin b3) (i' : Fin a0) (l : Fin a1) (e : Fin a2)
    (hpos : (i'.val * a1 + l.val) * a2 + e.val = ((i.val * b1 + h.val) * b2 + p.val) * b3 + d.val) :
    shapeCast ⟨4, ![b0, b1, b2, b3]⟩ x hc (ix4 i h p d) = x (ix3 i' l e) :=
  shapeCast_apply x hc _ _ (by
    rw [Shape.rowMajor_val_three, Shape.rowMajor_val_four]
    exact hpos)

end Cert.Lib.LeadAxes

end
-- ==== Proof.KernelIdealTile.lean ====
/-
  The kernel's tile at one entry.

  From its six loaded blocks — a 1024-row tile `q` of the queries with its mask column `mq`, the 2048 rows `k`, `v` of the
  keys and values with the key mask as a column `mc` and as a row `mr` — the body computes a 1024 × 64 tile. Read at row
  `n`, feature `p`, it is the specification's entry for the query row `(q n · mq n) · s`, the key rows `(k j · mc j) · s`,
  the mask `mr` and the value feature `v · p`: the lane sums are finite sums, the two matrix products into zero are sums of
  products, the narrowings to bf16 are the identity at the ideal values, and the column and row broadcasts read the column's
  or the row's one entry.
-/
import proofs.«120666_j6957847019895_1_alg».proof.Proof.Gen.KernelIdeal.Skeleton
import proofs.«120666_j6957847019895_1_alg».proof.Proof.KernelIdealBody
import proofs.«120666_j6957847019895_1_alg».proof.Proof.Spec
import proofs.«120666_j6957847019895_1_alg».proof.Proof.LibPlainDot
import proofs.«120666_j6957847019895_1_alg».proof.Proof.LibMatmulRows
import proofs.«120666_j6957847019895_1_alg».proof.Proof.LibColumn
import proofs.«120666_j6957847019895_1_alg».proof.Proof.LibRowForms
import proofs.«120666_j6957847019895_1_alg».proof.Proof.LibBlockOps
import proofs.«120666_j6957847019895_1_alg».proof.Proof.LibLeadAxes
import Idealize.ShloMosaic.Lib.ValueLayout

noncomputable section

open scoped BigOperators

namespace Cert.KernelIdeal.TileValue

open Cert.KernelIdeal Cert.KernelIdeal.Gen Idealize.ShloMosaic Idealize.ShloMosaic.ValueIdx
open Cert.Lib Cert.Rbf

/-- The scaled, masked query tile at `(n, d)`. -/
theorem scaledQ_apply (q : Vec Ideal S1x1024x64 .f32) (mq : Vec Ideal S1x1024x1 .f32) (n : Fin 1024) (d : Fin 64) :
    k0_pay2 (F := Ideal) q mq (ix2 n d) = (q (ix3 (0 : Fin 1) n d) * mq (ix3 (0 : Fin 1) n (0 : Fin 1))) * scale := by
  unfold k0_pay2
  rw [mulf_apply, mulf_apply, broadcast_apply, RowForms.unslab_apply, Column.colBroadcast_apply, RowForms.unslab_apply]
  rfl

/-- The scaled, masked keys at `(j, d)`. -/
theorem scaledK_apply (k : Vec Ideal S1x2048x64 .f32) (mc : Vec Ideal S1x2048x1 .f32) (j : Fin 2048) (d : Fin 64) :
    k0_pay3 (F := Ideal) k mc (ix2 j d) = (k (ix3 (0 : Fin 1) j d) * mc (ix3 (0 : Fin 1) j (0 : Fin 1))) * scale := by
  unfold k0_pay3
  rw [mulf_apply, mulf_apply, broadcast_apply, RowForms.unslab_apply, Column.colBroadcast_apply, RowForms.unslab_apply]
  rfl

/-- Half the squared norm of query row `n`, held as a column. -/
theorem halfNormQ_apply (q : Vec Ideal S1x1024x64 .f32) (mq : Vec Ideal S1x1024x1 .f32) (n : Fin 1024) :
    k0_pay4 (F := Ideal) q mq (ix2 n (0 : Fin 1))
      = half * ∑ d : Fin 64, k0_pay2 (F := Ideal) q mq (ix2 n d) * k0_pay2 (F := Ideal) q mq (ix2 n d) := by
  unfold k0_pay4
  rw [mulf_apply, broadcast_apply]
  refine congrArg (fun z => _ * z) ?_
  refine (Column.col_apply _ _ n).trans ?_
  exact BlockOps.rowSum_apply _ _ _ _ _ n

/-- Half the squared norm of key row `j`, held as a row. -/
theorem halfNormK_apply (k : Vec Ideal S1x2048x64 .f32) (mc : Vec Ideal S1x2048x1 .f32) (j : Fin 2048) :
    k0_pay5 (F := Ideal) k mc (ix2 (0 : Fin 1) j)
      = half * ∑ d : Fin 64, k0_pay3 (F := Ideal) k mc (ix2 j d) * k0_pay3 (F := Ideal) k mc (ix2 j d) := by
  unfold k0_pay5
  refine (transpose_ix2_apply _ _ (0 : Fin 1) j).trans ?_
  rw [mulf_apply, broadcast_apply]
  refine congrArg (fun z => _ * z) ?_
  refine (Column.col_apply _ _ j).trans ?_
  exact BlockOps.rowSum_apply _ _ _ _ _ j

/-- The score of query row `n` against key row `j`: the inner product of the two scaled rows. -/
theorem scores_apply (q : Vec Ideal S1x1024x64 .f32) (mq : Vec Ideal S1x1024x1 .f32) (k : Vec Ideal S1x2048x64 .f32)
    (mc : Vec Ideal S1x2048x1 .f32) (n : Fin 1024) (j : Fin 2048) :
    k0_pay6 (F := Ideal) q mq k mc (ix2 n j)
      = ∑ d : Fin 64, k0_pay2 (F := Ideal) q mq (ix2 n d) * k0_pay3 (F := Ideal) k mc (ix2 j d) := by
  unfold k0_pay6
  exact MatmulRows.matmul_transposed_apply dot_S1024x64_S64x2048_S1024x2048_1_0_0_1_n_n rfl none _ _ _ n j

/-- One minus the key mask at `j`. -/
theorem unmask_apply (mr : Vec Ideal S1x1x2048 .f32) (j : Fin 2048) :
    k0_pay7 (F := Ideal) mr (ix2 (0 : Fin 1) j) = one - mr (ix3 (0 : Fin 1) (0 : Fin 1) j) := by
  unfold k0_pay7
  rw [subf_apply, broadcast_apply, RowForms.unslab_apply]
  rfl

/-- The last payload — the exponentials of the penalised scores times the values — at `(0, n, p)`. -/
theorem out_apply (v20 : FVec Ideal S1024x1 .f32) (v26 : FVec Ideal S1x2048 .f32) (v30 : FVec Ideal S1024x2048 .f32)
    (v34 : FVec Ideal S1x2048 .f32) (v45 : Vec Ideal S1x2048x64 .f32) (n : Fin 1024) (p : Fin 64) :
    k0_pay1 (F := Ideal) v20 v26 v30 v34 v45 (ix3 (0 : Fin 1) n p)
      = ∑ j : Fin 2048, Ideal.exp (((v30 (ix2 n j) - v20 (ix2 n (0 : Fin 1))) - v26 (ix2 (0 : Fin 1) j))
          - big * v34 (ix2 (0 : Fin 1) j)) * v45 (ix3 (0 : Fin 1) j p) := by
  unfold k0_pay1
  refine (LeadAxes.slab_apply _ _ n p).trans ?_
  have hD : dot_S1024x2048_S2048x64_S1024x64_1_0_0_1_n_n = DotDims.plain 1024 2048 64 := rfl
  rw [hD]
  refine (PlainDot.matmul_zero_apply none _ _ n p).trans ?_
  refine Finset.sum_congr rfl fun j _ => ?_
  rw [truncf_apply, truncf_apply, RowForms.unslab_apply]
  show Ideal.exp (((v30 (ix2 n j) - broadcastTo S1024x2048 v20 _ (ix2 n j)) - broadcastTo S1024x2048 v26 _ (ix2 n j))
      - broadcastTo S1024x2048 (mulf (broadcast S1x2048 _) v34) _ (ix2 n j)) * _ = _
  rw [Column.colBroadcast_apply, RowForms.rowBroadcast_apply, RowForms.rowBroadcast_apply]
  rfl

/-- THE TILE AT AN ENTRY: the specification's entry for the scaled, masked rows. -/
theorem tile_apply (q : Vec Ideal S1x1024x64 .f32) (k v : Vec Ideal S1x2048x64 .f32) (mq : Vec Ideal S1x1024x1 .f32)
    (mc : Vec Ideal S1x2048x1 .f32) (mr : Vec Ideal S1x1x2048 .f32) (n : Fin 1024) (p : Fin 64) :
    Cert.KernelIdeal.Hand.tile (F := Ideal) q k v mq mc mr (ix3 (0 : Fin 1) n p)
      = entry (fun d => (q (ix3 (0 : Fin 1) n d) * mq (ix3 (0 : Fin 1) n (0 : Fin 1))) * scale)
          (fun j d => (k (ix3 (0 : Fin 1) j d) * mc (ix3 (0 : Fin 1) j (0 : Fin 1))) * scale)
          (fun j => mr (ix3 (0 : Fin 1) (0 : Fin 1) j)) (fun j => v (ix3 (0 : Fin 1) j p)) := by
  unfold Cert.KernelIdeal.Hand.tile entry
  rw [out_apply]
  refine Finset.sum_congr rfl fun j _ => ?_
  rw [scores_apply, halfNormQ_apply, halfNormK_apply, unmask_apply]
  simp only [scaledQ_apply, scaledK_apply]

end Cert.KernelIdeal.TileValue

end
-- ==== Proof.KernelIdealValue.lean ====
/-
  From blocks to the array: what the output array holds after the run.

  Point (bh, qi) of the grid writes back rows qi·1024 … qi·1024 + 1023 of batch-head bh of the output array; the 48 blocks
  tile it. What a point writes is its tile, computed from the blocks the point was handed: the query and query-mask
  blocks sit at the same batch-head and the same rows as the output block, the key, value and key-mask blocks are the
  whole batch-head. So every entry of the output array is the specification's entry, read off the five arrays the region
  is entered with (`outArr`).
-/
import proofs.«120666_j6957847019895_1_alg».proof.Proof.KernelIdealRun
import proofs.«120666_j6957847019895_1_alg».proof.Proof.KernelIdealTile
import Idealize.ShloMosaic.Lib.Pipeline.Value

set_option maxRecDepth 16384

noncomputable section

open scoped BigOperators

namespace Cert.KernelIdeal.ArrValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open Cert.Rbf

variable (m : (ℓ : Loc nD τ sig) → Buf (Elt Ideal) ℓ) (ρ : Dev nD → PrngReg)

/-- One entry of the output array from the five arrays the region reads: batch-head `g`, query row `n`, feature `p`. -/
def outAt (A0 A1 A2 : S24x2048x64.Idx → EReal) (A5 : S24x2048x1.Idx → EReal) (A6 : S24x1x2048.Idx → EReal)
    (g : Fin 24) (n : Fin 2048) (p : Fin 64) : EReal :=
  entry (fun d => (A0 (ix3 g n d) * A5 (ix3 g n (0 : Fin 1))) * scale)
    (fun j d => (A1 (ix3 g j d) * A5 (ix3 g j (0 : Fin 1))) * scale)
    (fun j => A6 (ix3 g (0 : Fin 1) j)) (fun j => A2 (ix3 g j p))

/-- The output array as one function of those arrays. -/
def outArr (A0 A1 A2 : S24x2048x64.Idx → EReal) (A5 : S24x2048x1.Idx → EReal) (A6 : S24x1x2048.Idx → EReal) :
    S24x2048x64.Idx → EReal :=
  fun i => outAt A0 A1 A2 A5 A6 ⟨(i 0).val, (i 0).isLt⟩ ⟨(i 1).val, (i 1).isLt⟩ ⟨(i 2).val, (i 2).isLt⟩

theorem hz3 : (![0, 0, 0] : Fin 3 → Nat) = fun _ => 0 := funext fun a => by fin_cases a <;> rfl

/-- The printed index maps, decided over the 48 grid points: every window sits at the output's batch-head; the query
    and query-mask blocks at the output's row block; every other coordinate is zero. -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 3) = win0_6.index t (0 : Fin 3) ∧ win0_2.index t (1 : Fin 3) = 0 ∧ win0_2.index t (2 : Fin 3) = 0
    ∧ win0_3.index t (0 : Fin 3) = win0_6.index t (0 : Fin 3) ∧ win0_3.index t (1 : Fin 3) = win0_6.index t (1 : Fin 3) ∧ win0_3.index t (2 : Fin 3) = 0
    ∧ win0_4.index t (0 : Fin 3) = win0_6.index t (0 : Fin 3) ∧ win0_4.index t (1 : Fin 3) = 0 ∧ win0_4.index t (2 : Fin 3) = 0
    ∧ win0_5.index t (0 : Fin 3) = win0_6.index t (0 : Fin 3) ∧ win0_5.index t (1 : Fin 3) = 0 ∧ win0_5.index t (2 : Fin 3) = 0
    ∧ win0_6.index t (0 : Fin 3) < 24 ∧ win0_6.index t (1 : Fin 3) < 2 ∧ win0_6.index t (2 : Fin 3) = 0 :=
  (by decide +kernel : ∀ t : Fin grid0.N, _)

/-- Every block of the output array is some point's. -/
theorem idx_onto : ∀ (g : Fin 24) (s : Fin 2), ∃ t : Fin cfg0.N, win0_6.index t = ![g.val, s.val, 0] :=
  (by decide +kernel : ∀ (g : Fin 24) (s : Fin 2), ∃ t : Fin grid0.N, win0_6.index t = ![g.val, s.val, 0])

/-! ## Each input block, read where the output's block sits -/

/-- The query block at `(0, n, d)` is the query array at the output block's batch-head and row. -/
theorem readQ (c : Dev nD) (t : Fin cfg0.N) (n : Fin 1024) (d : Fin 64) (g : Fin 24) (r : Fin 2048)
    (hg : g.val = win0_6.index t (0 : Fin 3)) (hr : r.val = win0_6.index t (1 : Fin 3) * 1024 + n.val) :
    iblk m c 0 t (ix3 (0 : Fin 1) n d) = V m c main_v0 (ix3 g r d) := by
  show V m c main_v0 (((cfg0.win 0).blk t).view.emb (ix3 (0 : Fin 1) n d)) = _
  obtain ⟨e0, e1, e2, -⟩ := idx_facts t
  refine congrArg _ (funext fun a => Fin.ext ?_)
  match a with
  | ⟨0, _⟩ => show win0_0.index t (0 : Fin 3) * 1 + 1 * 0 = g.val; omega
  | ⟨1, _⟩ => show win0_0.index t (1 : Fin 3) * 1024 + 1 * n.val = r.val; omega
  | ⟨2, _⟩ => show win0_0.index t (2 : Fin 3) * 64 + 1 * d.val = d.val; omega

/-- The query-mask block at `(0, n, 0)`. -/
theorem readMq (c : Dev nD) (t : Fin cfg0.N) (n : Fin 1024) (g : Fin 24) (r : Fin 2048)
    (hg : g.val = win0_6.index t (0 : Fin 3)) (hr : r.val = win0_6.index t (1 : Fin 3) * 1024 + n.val) :
    iblk m c 3 t (ix3 (0 : Fin 1) n (0 : Fin 1)) = V m c main_v5 (ix3 g r (0 : Fin 1)) := by
  show V m c main_v5 (((cfg0.win 3).blk t).view.emb (ix3 (0 : Fin 1) n (0 : Fin 1))) = _
  obtain ⟨-, -, -, -, -, -, -, -, -, e0, e1, e2, -⟩ := idx_facts t
  refine congrArg _ (funext fun a => Fin.ext ?_)
  match a with
  | ⟨0, _⟩ => show win0_3.index t (0 : Fin 3) * 1 + 1 * 0 = g.val; omega
  | ⟨1, _⟩ => show win0_3.index t (1 : Fin 3) * 1024 + 1 * n.val = r.val; omega
  | ⟨2, _⟩ => show win0_3.index t (2 : Fin 3) * 1 + 1 * 0 = 0; omega

/-- The key block at `(0, j, d)`: the whole batch-head. -/
theorem readK (c : Dev nD) (t : Fin cfg0.N) (j : Fin 2048) (d : Fin 64) (g : Fin 24)
    (hg : g.val = win0_6.index t (0 : Fin 3)) :
    iblk m c 1 t (ix3 (0 : Fin 1) j d) = V m c main_v1 (ix3 g j d) := by
  show V m c main_v1 (((cfg0.win 1).blk t).view.emb (ix3 (0 : Fin 1) j d)) = _
  obtain ⟨-, -, -, e0, e1, e2, -⟩ := idx_facts t
  refine congrArg _ (funext fun a => Fin.ext ?_)
  match a with
  | ⟨0, _⟩ => show win0_1.index t (0 : Fin 3) * 1 + 1 * 0 = g.val; omega
  | ⟨1, _⟩ => show win0_1.index t (1 : Fin 3) * 2048 + 1 * j.val = j.val; omega
  | ⟨2, _⟩ => show win0_1.index t (2 : Fin 3) * 64 + 1 * d.val = d.val; omega

/-- The value block at `(0, j, p)`. -/
theorem readV (c : Dev nD) (t : Fin cfg0.N) (j : Fin 2048) (p : Fin 64) (g : Fin 24)
    (hg : g.val = win0_6.index t (0 : Fin 3)) :
    iblk m c 2 t (ix3 (0 : Fin 1) j p) = V m c main_v2 (ix3 g j p) := by
  show V m c main_v2 (((cfg0.win 2).blk t).view.emb (ix3 (0 : Fin 1) j p)) = _
  obtain ⟨-, -, -, -, -, -, e0, e1, e2, -⟩ := idx_facts t
  refine congrArg _ (funext fun a => Fin.ext ?_)
  match a with
  | ⟨0, _⟩ => show win0_2.index t (0 : Fin 3) * 1 + 1 * 0 = g.val; omega
  | ⟨1, _⟩ => show win0_2.index t (1 : Fin 3) * 2048 + 1 * j.val = j.val; omega
  | ⟨2, _⟩ => show win0_2.index t (2 : Fin 3) * 64 + 1 * p.val = p.val; omega

/-- The key-mask column block at `(0, j, 0)`. -/
theorem readMc (c : Dev nD) (t : Fin cfg0.N) (j : Fin 2048) (g : Fin 24)
    (hg : g.val = win0_6.index t (0 : Fin 3)) :
    iblk m c 4 t (ix3 (0 : Fin 1) j (0 : Fin 1)) = V m c main_v5 (ix3 g j (0 : Fin 1)) := by
  show V m c main_v5 (((cfg0.win 4).blk t).view.emb (ix3 (0 : Fin 1) j (0 : Fin 1))) = _
  obtain ⟨-, -, -, -, -, -, -, -, -, -, -, -, e0, e1, e2, -⟩ := idx_facts t
  refine congrArg _ (funext fun a => Fin.ext ?_)
  match a with
  | ⟨0, _⟩ => show win0_4.index t (0 : Fin 3) * 1 + 1 * 0 = g.val; omega
  | ⟨1, _⟩ => show win0_4.index t (1 : Fin 3) * 2048 + 1 * j.val = j.val; omega
  | ⟨2, _⟩ => show win0_4.index t (2 : Fin 3) * 1 + 1 * 0 = 0; omega

/-- The key-mask row block at `(0, 0, j)`. -/
theorem readMr (c : Dev nD) (t : Fin cfg0.N) (j : Fin 2048) (g : Fin 24)
    (hg : g.val = win0_6.index t (0 : Fin 3)) :
    iblk m c 5 t (ix3 (0 : Fin 1) (0 : Fin 1) j) = V m c main_v6 (ix3 g (0 : Fin 1) j) := by
  show V m c main_v6 (((cfg0.win 5).blk t).view.emb (ix3 (0 : Fin 1) (0 : Fin 1) j)) = _
  obtain ⟨-, -, -, -, -, -, -, -, -, -, -, -, -, -, -, e0, e1, e2, -⟩ := idx_facts t
  refine congrArg _ (funext fun a => Fin.ext ?_)
  match a with
  | ⟨0, _⟩ => show win0_5.index t (0 : Fin 3) * 1 + 1 * 0 = g.val; omega
  | ⟨1, _⟩ => show win0_5.index t (1 : Fin 3) * 1 + 1 * 0 = 0; omega
  | ⟨2, _⟩ => show win0_5.index t (2 : Fin 3) * 2048 + 1 * j.val = j.val; omega

/-! ## What a point writes back -/

/-- WHAT POINT `t` WRITES BACK is block `t` of `outArr` of the arrays as the region finds them. -/
theorem flushed_eq (c : Dev nD) (t : Fin cfg0.N) :
    (dats m 0 c).flushed 6 t = ((cfg0.win 6).blk t).view.read (Elt Ideal)
      (outArr (V m c main_v0) (V m c main_v1) (V m c main_v2) (V m c main_v5) (V m c main_v6)) := by
  show (cfg0.win 6).cut (grid0.coords t) ((dats m 0 c).after 6 t) = _
  rw [after_6]
  unfold outTile
  rw [View.canon_unit_zero hz3]
  simp only [View.ld_unit_zero (S := S1x1024x64) hz3, View.ld_unit_zero (S := S1x2048x64) hz3,
    View.ld_unit_zero (S := S1x1024x1) hz3, View.ld_unit_zero (S := S1x2048x1) hz3, View.ld_unit_zero (S := S1x1x2048) hz3]
  funext y
  obtain ⟨z, n, p, rfl⟩ : ∃ (z : Fin 1) (n : Fin 1024) (p : Fin 64), y = ix3 z n p := ⟨y 0, y 1, y 2, eq_ix3 y⟩
  obtain rfl : z = 0 := Subsingleton.elim _ _
  obtain ⟨-, -, -, -, -, -, -, -, -, -, -, -, -, -, -, -, -, -, b0, b1, b2⟩ := idx_facts t
  have hg : ((((cfg0.win 6).blk t).view.emb (ix3 (0 : Fin 1) n p)) 0).val = win0_6.index t (0 : Fin 3) := by
    show win0_6.index t (0 : Fin 3) * 1 + 1 * 0 = _; omega
  have hr : ((((cfg0.win 6).blk t).view.emb (ix3 (0 : Fin 1) n p)) 1).val = win0_6.index t (1 : Fin 3) * 1024 + n.val := by
    show win0_6.index t (1 : Fin 3) * 1024 + 1 * n.val = _; omega
  have hp : ((((cfg0.win 6).blk t).view.emb (ix3 (0 : Fin 1) n p)) 2).val = p.val := by
    show win0_6.index t (2 : Fin 3) * 64 + 1 * p.val = _; omega
  show tile (iblk m c 0 t) (iblk m c 1 t) (iblk m c 2 t) (iblk m c 3 t) (iblk m c 4 t) (iblk m c 5 t) (ix3 (0 : Fin 1) n p)
    = outArr (V m c main_v0) (V m c main_v1) (V m c main_v2) (V m c main_v5) (V m c main_v6)
        (((cfg0.win 6).blk t).view.emb (ix3 (0 : Fin 1) n p))
  refine (TileValue.tile_apply (iblk m c 0 t) (iblk m c 1 t) (iblk m c 2 t) (iblk m c 3 t) (iblk m c 4 t) (iblk m c 5 t) n p).trans ?_
  unfold outArr outAt
  refine congr (congr (congr (congrArg entry (funext fun d => ?_)) (funext fun j => funext fun d => ?_)) (funext fun j => ?_))
    (funext fun j => ?_)
  · rw [readQ m c t n d _ _ hg hr, readMq m c t n _ _ hg hr]
    rfl
  · rw [readK m c t j d _ hg, readMc m c t j _ hg]
    rfl
  · exact readMr m c t j _ hg
  · refine (readV m c t j p _ hg).trans (congrArg _ (funext fun a => Fin.ext ?_))
    match a with
    | ⟨0, _⟩ => rfl
    | ⟨1, _⟩ => rfl
    | ⟨2, _⟩ => exact hp.symm

/-! ## The cover, and the array after the run -/

/-- An index of the array is in point `t`'s block iff each coordinate is in the block's range on its axis. -/
theorem mem_blk (t : Fin cfg0.N) (i : S24x2048x64.Idx) :
    i ∈ ((cfg0.win 6).blk t).view.set ↔ ∀ a : Fin 3, win0_6.index t a * S1x1024x64.size a ≤ (i a).val
      ∧ (i a).val < win0_6.index t a * S1x1024x64.size a + S1x1024x64.size a := by
  show i ∈ ((View.whole main_v7).slice (win0_6.rect t)).set ↔ _
  rw [View.set_slice_whole, Rect.mem_set_unit]
  exact Iff.rfl

/-- Every index of the output array is in some point's block: batch-head `i 0`, row block `i 1 / 1024`. -/
theorem cover (i : S24x2048x64.Idx) :
    ∃ t : Fin cfg0.N, (cfg0.win 6).flush t = true ∧ i ∈ ((cfg0.win 6).blk t).view.set := by
  have hi0 : (i 0).val < 24 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 64 ≤ (i 2).val ∧ (i 2).val < win0_6.index t (2 : Fin 3) * 64 + 64; omega

/-- THE OUTPUT ARRAY after the run: the specification's entries, read off the arrays the region is entered with. -/
theorem final (c : Dev nD) : (dats m 0 c).arrAt 6 cfg0.N
    = outArr (V m c main_v0) (V m c main_v1) (V m c main_v2) (V m c main_v5) (V m c main_v6) :=
  (dats m 0 c).arrAt_eq_of_cover 6 _ (fun t _ => flushed_eq m c t) cover

end Cert.KernelIdeal.ArrValue

end
-- ==== Proof.LibReshape.lean ====
/-
  Row-major reshapes between ranks two, three and four, read at an index.

  A reshape keeps the row-major position of every entry. Merging the two leading axes of an `a × b × c` array
  gives an `(a·b) × c` array whose row `i·b + j` is the old `(i, j)`; splitting goes the other way; and a rank-four
  array re-read at rank three holds, at each index, the entry with the same row-major position.
-/
import Idealize.ShloMosaic.Lib.ValueIdx
import Idealize.ShloMosaic.Lib.Pipeline.Value

noncomputable section

namespace Cert.Lib.Reshape

open Idealize.ShloMosaic Idealize.ShloMosaic.ValueIdx

variable {α : Type}

/-- Merging the two leading axes: row `r = i·b + j`, column `k` of the result is the operand at `(i, j, k)`. -/
theorem merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the leading axis: entry `(i, j, k)` of the result is the operand at row `r = i·b + j`, column `k`. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A rank-four array re-read at rank three: entry `(i, l, e)` of the result is the operand at the index
    `(i', h, p, d)` with the same row-major position. -/
theorem four_three_apply {a0 a1 a2 a3 b0 b1 b2 : ℕ} (x : (⟨4, ![a0, a1, a2, a3]⟩ : Shape).Idx → α)
    (hc : (⟨4, ![a0, a1, a2, a3]⟩ : Shape).ShapeCasts ⟨3, ![b0, b1, b2]⟩)
    (i : Fin b0) (l : Fin b1) (e : Fin b2) (i' : Fin a0) (h : Fin a1) (p : Fin a2) (d : Fin a3)
    (hpos : ((i'.val * a1 + h.val) * a2 + p.val) * a3 + d.val = (i.val * b1 + l.val) * b2 + e.val) :
    shapeCast ⟨3, ![b0, b1, b2]⟩ x hc (ix3 i l e) = x (ix4 i' h p d) :=
  shapeCast_apply x hc _ _ (by
    rw [Shape.rowMajor_val_four, Shape.rowMajor_val_three]
    exact hpos)

end Cert.Lib.Reshape

end
-- ==== Proof.KernelIdealHost.lean ====
/-
  The host operations around the region, read at an entry, and the kernel's result as the specification.

  Before the region the three 4-D arguments are re-read as 24 batch-heads (batch-head `b·12 + h` is batch `b`, head
  `h`), and the mask is repeated over the 12 heads and given a unit axis — last for the column form, middle for the row
  form: at batch-head `b·12 + h` both read the mask of batch `b`. After the region the output array is re-read at rank
  four. So entry `(b, h, n, p)` of the result is entry `(b·12 + h, n, p)` of the output array, and the arrays the region
  reads are the arguments at `(b, h, ·, ·)` and the mask at `(b, ·)`.
-/
import proofs.«120666_j6957847019895_1_alg».proof.Proof.KernelIdealValue
import proofs.«120666_j6957847019895_1_alg».proof.Proof.LibReshape
import proofs.«120666_j6957847019895_1_alg».proof.Proof.LibLeadAxes

set_option maxRecDepth 16384

noncomputable section

open scoped BigOperators

namespace Cert.KernelIdeal.HostValue

open Cert.KernelIdeal Cert.KernelIdeal.Gen Cert.KernelIdeal.Hand Cert.KernelIdeal.ArrValue
open Idealize.ShloMosaic Idealize.ShloMosaic.TcCoe Idealize.SL.Sem Idealize.ShloMosaic.StableHlo
open Idealize.ShloMosaic.ValueIdx
open Cert.Lib Cert.Rbf

variable (m : (ℓ : Loc nD τ sig) → Buf (Elt Ideal) ℓ)

/-! ## The arrays the region is entered with -/

theorem V_v0 (c : Dev nD) : (V m c main_v0 : S24x2048x64.Idx → EReal)
    = shapeCast S24x2048x64 (m ((c : Thread nD τ).loc main_arg0)) shapeCasts_S2x12x2048x64_S24x2048x64 := by
  show StableHlo.after hostOps0 (fun b => m (c, b)) (Proc.devRef .tc main_v0) = _
  after_results
  rfl

theorem V_v1 (c : Dev nD) : (V m c main_v1 : S24x2048x64.Idx → EReal)
    = shapeCast S24x2048x64 (m ((c : Thread nD τ).loc main_arg1)) shapeCasts_S2x12x2048x64_S24x2048x64 := by
  show StableHlo.after hostOps0 (fun b => m (c, b)) (Proc.devRef .tc main_v1) = _
  after_results
  rfl

theorem V_v2 (c : Dev nD) : (V m c main_v2 : S24x2048x64.Idx → EReal)
    = shapeCast S24x2048x64 (m ((c : Thread nD τ).loc main_arg2)) shapeCasts_S2x12x2048x64_S24x2048x64 := by
  show StableHlo.after hostOps0 (fun b => m (c, b)) (Proc.devRef .tc main_v2) = _
  after_results
  rfl

/-- The mask repeated over the heads, one row per batch-head. -/
def maskBH (M : S2x2048.Idx → EReal) : S24x2048.Idx → EReal :=
  shapeCast S24x2048 (broadcastInDim S2x12x2048 ![0, 2] bcast_S2x2048_S2x12x2048_0_2 M) shapeCasts_S2x12x2048_S24x2048

theorem V_v5 (c : Dev nD) : (V m c main_v5 : S24x2048x1.Idx → EReal)
    = broadcastInDim S24x2048x1 ![0, 1] bcast_S24x2048_S24x2048x1_0_1 (maskBH (m ((c : Thread nD τ).loc main_arg3))) := by
  show StableHlo.after hostOps0 (fun b => m (c, b)) (Proc.devRef .tc main_v5) = _
  after_results
  rfl

theorem V_v6 (c : Dev nD) : (V m c main_v6 : S24x1x2048.Idx → EReal)
    = broadcastInDim S24x1x2048 ![0, 2] bcast_S24x2048_S24x1x2048_0_2 (maskBH (m ((c : Thread nD τ).loc main_arg3))) := by
  show StableHlo.after hostOps0 (fun b => m (c, b)) (Proc.devRef .tc main_v6) = _
  after_results
  rfl

/-! ## Read at an entry -/

/-- A 4-D argument re-read as batch-heads: batch-head `g = b·12 + h`. -/
theorem bh_apply (X : S2x12x2048x64.Idx → EReal) (g : Fin 24) (b : Fin 2) (h : Fin 12) (n : Fin 2048) (d : Fin 64)
    (hg : g.val = b.val * 12 + h.val) :
    shapeCast S24x2048x64 X shapeCasts_S2x12x2048x64_S24x2048x64 (ix3 g n d) = X (ix4 b h n d) :=
  Reshape.four_three_apply X _ g n d b h n d (by rw [hg])

/-- The mask of batch-head `g = b·12 + h` at position `n` is the mask of batch `b`. -/
theorem maskBH_apply (M : S2x2048.Idx → EReal) (g : Fin 24) (b : Fin 2) (h : Fin 12) (n : Fin 2048)
    (hg : g.val = b.val * 12 + h.val) : maskBH M (ix2 g n) = M (ix2 b n) := by
  unfold maskBH
  refine (Reshape.merge_apply _ _ b h n g hg).trans ?_
  exact broadcastInDim_apply _ bcast_S2x2048_S2x12x2048_0_2 M (ix3 b h n) (ix2 b n) (fun a => match a with
    | ⟨0, _⟩ => by show b.val = if (2 : Nat) = 1 then 0 else b.val; rw [if_neg (by decide)]
    | ⟨1, _⟩ => by show n.val = if (2048 : Nat) = 1 then 0 else n.val; rw [if_neg (by decide)])

/-- The mask column at `(g, n, 0)`. -/
theorem maskCol_apply (Mb : S24x2048.Idx → EReal) (g : Fin 24) (n : Fin 2048) :
    broadcastInDim S24x2048x1 ![0, 1] bcast_S24x2048_S24x2048x1_0_1 Mb (ix3 g n (0 : Fin 1)) = Mb (ix2 g n) :=
  broadcastInDim_apply _ bcast_S24x2048_S24x2048x1_0_1 Mb (ix3 g n (0 : Fin 1)) (ix2 g n) (fun a => match a with
    | ⟨0, _⟩ => by show g.val = if (24 : Nat) = 1 then 0 else g.val; rw [if_neg (by decide)]
    | ⟨1, _⟩ => by show n.val = if (2048 : Nat) = 1 then 0 else n.val; rw [if_neg (by decide)])

/-- The mask row at `(g, 0, j)`. -/
theorem maskRow_apply (Mb : S24x2048.Idx → EReal) (g : Fin 24) (j : Fin 2048) :
    broadcastInDim S24x1x2048 ![0, 2] bcast_S24x2048_S24x1x2048_0_2 Mb (ix3 g (0 : Fin 1) j) = Mb (ix2 g j) :=
  broadcastInDim_apply _ bcast_S24x2048_S24x1x2048_0_2 Mb (ix3 g (0 : Fin 1) j) (ix2 g j) (fun a => match a with
    | ⟨0, _⟩ => by show g.val = if (24 : Nat) = 1 then 0 else g.val; rw [if_neg (by decide)]
    | ⟨1, _⟩ => by show j.val = if (2048 : Nat) = 1 then 0 else j.val; rw [if_neg (by decide)])

/-! ## The result -/

/-- The result buffer after the closing reshape is the output array re-read at rank four. -/
theorem res_eq (c : Dev nD) : (res m c : S2x12x2048x64.Idx → EReal)
    = shapeCast S2x12x2048x64 ((dats m 0 c).arrAt 6 cfg0.N) shapeCasts_S24x2048x64_S2x12x2048x64 := by
  unfold res
  after_results
  rw [Wx_out]
  rfl

/-- THE KERNEL'S RESULT IS THE SPECIFICATION of the four arguments as launched. -/
theorem res_result (c : Dev nD) : (res m c : S2x12x2048x64.Idx → EReal)
    = result (m ((c : Thread nD τ).loc main_arg0)) (m ((c : Thread nD τ).loc main_arg1)) (m ((c : Thread nD τ).loc main_arg2))
        (m ((c : Thread nD τ).loc main_arg3)) := by
  funext i
  obtain ⟨b, h, n, p, rfl⟩ : ∃ (b : Fin 2) (h : Fin 12) (n : Fin 2048) (p : Fin 64), i = ix4 b h n p :=
    ⟨i 0, i 1, i 2, i 3, eq_ix4 i⟩
  have hb : b.val < 2 := b.isLt
  have hh : h.val < 12 := h.isLt
  have hg : (⟨b.val * 12 + h.val, by omega⟩ : Fin 24).val = b.val * 12 + h.val := rfl
  rw [res_eq, final]
  refine (LeadAxes.three_four_apply _ _ b h n p ⟨b.val * 12 + h.val, by omega⟩ n p rfl).trans ?_
  show outAt (V m c main_v0) (V m c main_v1) (V m c main_v2) (V m c main_v5) (V m c main_v6) ⟨b.val * 12 + h.val, _⟩ n p
    = resultAt _ _ _ _ b h n p
  unfold outAt resultAt
  rw [V_v0, V_v1, V_v2, V_v5, V_v6]
  refine congr (congr (congr (congrArg entry (funext fun d => ?_)) (funext fun j => funext fun d => ?_)) (funext fun j => ?_))
    (funext fun j => ?_)
  · rw [bh_apply _ _ b h n d hg, maskCol_apply, maskBH_apply _ _ b h n hg]
  · rw [bh_apply _ _ b h j d hg, maskCol_apply, maskBH_apply _ _ b h j hg]
  · rw [maskRow_apply, maskBH_apply _ _ b h j hg]
  · exact bh_apply _ _ b h j p hg

end Cert.KernelIdeal.HostValue

end
-- ==== Proof.RefValue.lean ====
/-
  The reference at one entry.

  The reference scales the mask once, multiplies the queries and the keys by it position by position, takes half the
  squared row norms as a column and as a row, contracts the scaled queries against the scaled keys, subtracts the two
  norms and the mask penalty, exponentiates, and contracts with the values. Read at `(b, h, n, p)` stage by stage, it is
  the specification's entry for the rows `Q · (M · s)` and `K · (M · s)`, which regroup to `(Q · M) · s`, `(K · M) · s`;
  the host's sums start from the zero word, which is the real zero.
-/
import proofs.«120666_j6957847019895_1_alg».proof.Proof.Gen.ReferenceIdeal.Read
import proofs.«120666_j6957847019895_1_alg».proof.Proof.Spec

noncomputable section

open scoped BigOperators

namespace Cert.ReferenceIdeal.RefValue

open Cert.ReferenceIdeal Cert.ReferenceIdeal.Read Idealize.ShloMosaic Idealize.ShloMosaic.ValueIdx
open Cert.Rbf

variable (Q K V : (⟨S2x12x2048x64, .f32⟩ : BufTy).Contents (Elt Ideal)) (M : (⟨S2x2048, .f32⟩ : BufTy).Contents (Elt Ideal))

/-- The scaled mask at position `(b, n)`. -/
theorem mask_apply (b : Fin 2) (n : Fin 2048) :
    val_main_v2 (F := Ideal) M (ix4 b (0 : Fin 1) n (0 : Fin 1)) = M (ix2 b n) * scale := by
  rw [val_main_v2_apply, val_main_v0_apply, val_main_v1_apply, val_main_cst_apply]
  show M (idx_main_v0 (ix4 b (0 : Fin 1) n (0 : Fin 1))) * scale = _
  refine congrArg (fun z => M z * scale) (funext fun a => Fin.ext ?_)
  match a with
  | ⟨0, _⟩ => rfl
  | ⟨1, _⟩ => rfl

/-- The scaled, masked queries. -/
theorem scaledQ_apply (b : Fin 2) (h : Fin 12) (n : Fin 2048) (d : Fin 64) :
    val_main_v4 (F := Ideal) Q M (ix4 b h n d) = (Q (ix4 b h n d) * M (ix2 b n)) * scale := by
  rw [val_main_v4_apply, val_main_v3_apply]
  have e : idx_main_v3 (ix4 b h n d) = ix4 b (0 : Fin 1) n (0 : Fin 1) := funext fun a => Fin.ext (by
    match a with
    | ⟨0, _⟩ => rfl
    | ⟨1, _⟩ => rfl
    | ⟨2, _⟩ => rfl
    | ⟨3, _⟩ => rfl)
  rw [e, mask_apply]
  exact scaled_assoc _ _

/-- The scaled, masked keys. -/
theorem scaledK_apply (b : Fin 2) (h : Fin 12) (j : Fin 2048) (d : Fin 64) :
    val_main_v6 (F := Ideal) K M (ix4 b h j d) = (K (ix4 b h j d) * M (ix2 b j)) * scale := by
  rw [val_main_v6_apply, val_main_v5_apply]
  have e : idx_main_v5 (ix4 b h j d) = ix4 b (0 : Fin 1) j (0 : Fin 1) := funext fun a => Fin.ext (by
    match a with
    | ⟨0, _⟩ => rfl
    | ⟨1, _⟩ => rfl
    | ⟨2, _⟩ => rfl
    | ⟨3, _⟩ => rfl)
  rw [e, mask_apply]
  exact scaled_assoc _ _

/-- Half the squared norm of a query row, as a column entry. -/
theorem halfNormQ_apply (b : Fin 2) (h : Fin 12) (n : Fin 2048) :
    val_main_v11 (F := Ideal) Q M (ix4 b h n (0 : Fin 1))
      = half * ∑ d : Fin 64, val_main_v4 (F := Ideal) Q M (ix4 b h n d) * val_main_v4 (F := Ideal) Q M (ix4 b h n d) := by
  rw [val_main_v11_apply, val_main_v10_apply, val_main_cst_1_apply, val_main_v9_apply, val_main_v8_apply, val_main_cst_0_apply]
  show half * (Ideal.ofBits .f32 0x00000000#32 + ∑ k : Fin 64, val_main_v7 (F := Ideal) Q M (idx_main_v8 (idx_main_v9 (ix4 b h n (0 : Fin 1))) k)) = _
  rw [Ideal.ofBits_zero_f32, zero_add]
  refine congrArg (fun z => half * z) (Finset.sum_congr rfl fun d _ => ?_)
  have e : idx_main_v8 (idx_main_v9 (ix4 b h n (0 : Fin 1))) d = ix4 b h n d := funext fun a => Fin.ext (by
    match a with
    | ⟨0, _⟩ => rfl
    | ⟨1, _⟩ => rfl
    | ⟨2, _⟩ => rfl
    | ⟨3, _⟩ => rfl)
  rw [e, val_main_v7_apply]
  rfl

/-- Half the squared norm of a key row, as a row entry. -/
theorem halfNormK_apply (b : Fin 2) (h : Fin 12) (j : Fin 2048) :
    val_main_v16 (F := Ideal) K M (ix4 b h (0 : Fin 1) j)
      = half * ∑ d : Fin 64, val_main_v6 (F := Ideal) K M (ix4 b h j d) * val_main_v6 (F := Ideal) K M (ix4 b h j d) := by
  rw [val_main_v16_apply, val_main_v15_apply, val_main_cst_3_apply, val_main_v14_apply, val_main_v13_apply, val_main_cst_2_apply]
  show half * (Ideal.ofBits .f32 0x00000000#32 + ∑ k : Fin 64, val_main_v12 (F := Ideal) K M (idx_main_v13 (idx_main_v14 (ix4 b h (0 : Fin 1) j)) k)) = _
  rw [Ideal.ofBits_zero_f32, zero_add]
  refine congrArg (fun z => half * z) (Finset.sum_congr rfl fun d _ => ?_)
  have e : idx_main_v13 (idx_main_v14 (ix4 b h (0 : Fin 1) j)) d = ix4 b h j d := funext fun a => Fin.ext (by
    match a with
    | ⟨0, _⟩ => rfl
    | ⟨1, _⟩ => rfl
    | ⟨2, _⟩ => rfl
    | ⟨3, _⟩ => rfl)
  rw [e, val_main_v12_apply]
  rfl

/-- The score of query position `n` against key position `j`. -/
theorem scores_apply (b : Fin 2) (h : Fin 12) (n j : Fin 2048) :
    val_main_v17 (F := Ideal) Q K M (ix4 b h n j)
      = ∑ d : Fin 64, val_main_v4 (F := Ideal) Q M (ix4 b h n d) * val_main_v6 (F := Ideal) K M (ix4 b h j d) := by
  rw [val_main_v17_apply]
  refine Finset.sum_congr rfl fun d _ => ?_
  have el : lidx_main_v17 (ix4 b h n j) d = ix4 b h n d := funext fun a => Fin.ext (by
    match a with
    | ⟨0, _⟩ => rfl
    | ⟨1, _⟩ => rfl
    | ⟨2, _⟩ => rfl
    | ⟨3, _⟩ => rfl)
  have er : ridx_main_v17 (ix4 b h n j) d = ix4 b h j d := funext fun a => Fin.ext (by
    match a with
    | ⟨0, _⟩ => rfl
    | ⟨1, _⟩ => rfl
    | ⟨2, _⟩ => rfl
    | ⟨3, _⟩ => rfl)
  rw [el, er]

/-- The mask penalty of key position `j`. -/
theorem penalty_apply (b : Fin 2) (j : Fin 2048) :
    val_main_v26 (F := Ideal) M (ix4 b (0 : Fin 1) (0 : Fin 1) j) = big * (one - M (ix2 b j)) := by
  rw [val_main_v26_apply, val_main_v25_apply, val_main_cst_5_apply, val_main_v24_apply, val_main_v23_apply, val_main_cst_4_apply,
    val_main_v22_apply]
  show big * (one - M (idx_main_v22 (ix4 b (0 : Fin 1) (0 : Fin 1) j))) = _
  refine congrArg (fun z => big * (one - M z)) (funext fun a => Fin.ext ?_)
  match a with
  | ⟨0, _⟩ => rfl
  | ⟨1, _⟩ => rfl

/-- The penalised score. -/
theorem logit_apply (b : Fin 2) (h : Fin 12) (n j : Fin 2048) :
    val_main_v28 (F := Ideal) Q K M (ix4 b h n j)
      = ((val_main_v17 (F := Ideal) Q K M (ix4 b h n j) - val_main_v11 (F := Ideal) Q M (ix4 b h n (0 : Fin 1)))
          - val_main_v16 (F := Ideal) K M (ix4 b h (0 : Fin 1) j)) - val_main_v26 (F := Ideal) M (ix4 b (0 : Fin 1) (0 : Fin 1) j) := by
  rw [val_main_v28_apply, val_main_v21_apply, val_main_v19_apply, val_main_v18_apply, val_main_v20_apply, val_main_v27_apply]
  have e18 : idx_main_v18 (ix4 b h n j) = ix4 b h n (0 : Fin 1) := funext fun a => Fin.ext (by
    match a with
    | ⟨0, _⟩ => rfl
    | ⟨1, _⟩ => rfl
    | ⟨2, _⟩ => rfl
    | ⟨3, _⟩ => rfl)
  have e20 : idx_main_v20 (ix4 b h n j) = ix4 b h (0 : Fin 1) j := funext fun a => Fin.ext (by
    match a with
    | ⟨0, _⟩ => rfl
    | ⟨1, _⟩ => rfl
    | ⟨2, _⟩ => rfl
    | ⟨3, _⟩ => rfl)
  have e27 : idx_main_v27 (ix4 b h n j) = ix4 b (0 : Fin 1) (0 : Fin 1) j := funext fun a => Fin.ext (by
    match a with
    | ⟨0, _⟩ => rfl
    | ⟨1, _⟩ => rfl
    | ⟨2, _⟩ => rfl
    | ⟨3, _⟩ => rfl)
  rw [e18, e20, e27]
  rfl

/-- THE REFERENCE IS THE SPECIFICATION. -/
theorem ref_eq : val_main_v30 (F := Ideal) Q K V M = result Q K V M := by
  funext i
  obtain ⟨b, h, n, p, rfl⟩ : ∃ (b : Fin 2) (h : Fin 12) (n : Fin 2048) (p : Fin 64), i = ix4 b h n p :=
    ⟨i 0, i 1, i 2, i 3, eq_ix4 i⟩
  show _ = resultAt Q K V M b h n p
  unfold resultAt entry
  rw [val_main_v30_apply]
  refine Finset.sum_congr rfl fun j _ => ?_
  have el : lidx_main_v30 (ix4 b h n p) j = ix4 b h n j := funext fun a => Fin.ext (by
    match a with
    | ⟨0, _⟩ => rfl
    | ⟨1, _⟩ => rfl
    | ⟨2, _⟩ => rfl
    | ⟨3, _⟩ => rfl)
  have er : ridx_main_v30 (ix4 b h n p) j = ix4 b h j p := funext fun a => Fin.ext (by
    match a with
    | ⟨0, _⟩ => rfl
    | ⟨1, _⟩ => rfl
    | ⟨2, _⟩ => rfl
    | ⟨3, _⟩ => rfl)
  rw [el, er, val_main_v29_apply, Ideal.hostUnary_exp_def, logit_apply, scores_apply, halfNormQ_apply, halfNormK_apply, penalty_apply]
  simp only [scaledQ_apply, scaledK_apply]

end Cert.ReferenceIdeal.RefValue

end
-- ==== Proof.lean ====
/-
  RBF attention without normalisation, `exp(Qs·Ksᵀ − ½‖Qs‖² − ½‖Ks‖² − 10⁹·(1 − mask)) · V` with `Qs = Q·mask·s`,
  `Ks = K·mask·s`: a Pallas kernel over a 24 × 2 grid (batch-head × query tile, the whole key and value rows of a
  batch-head resident) against the jnp reference.

  At the ideal values both programs compute, at entry `(b, h, n, p)`, the specification's entry (Proof/Spec.lean) — the
  narrowings to bf16 around the two matrix products are the identity, a lane sum and a host sum are the same finite sum,
  a matrix product into zero and a contraction are the same sum of products, and the literals are the same f32 words on
  both sides. The one arithmetic difference is the grouping of a scaled, masked entry, `(x·μ)·s` against `x·(μ·s)`, and
  multiplication of extended reals is associative: the precondition is never opened.

  The frames: the kernel stages the mask column through two windows (the query tile's rows and the whole batch-head) on
  ONE array, so the array's ownership is divided in halves between the two windows at the region's entry and both only
  read it (Proof/KernelRun.lean at the word level, Proof/KernelIdealRun.lean at the ideal values: the body's triple, the
  proof data, the launch continued by the closing reshape). The reference's frame is its run with the result dropped.
  The idealization rewrote nothing, so what it preserves is trivial.
-/
import proofs.«120666_j6957847019895_1_alg».proof.Defs
import proofs.«120666_j6957847019895_1_alg».proof.Proof.Gen.Kernel
import proofs.«120666_j6957847019895_1_alg».proof.Proof.Gen.KernelIdeal
import proofs.«120666_j6957847019895_1_alg».proof.Proof.Gen.ReferenceIdeal
import proofs.«120666_j6957847019895_1_alg».proof.Proof.Gen.Pre_finite_inputs
import proofs.«120666_j6957847019895_1_alg».proof.Proof.Gen.ReferenceIdeal.Run
import proofs.«120666_j6957847019895_1_alg».proof.Proof.Gen.ReferenceIdeal.Read
import proofs.«120666_j6957847019895_1_alg».proof.Proof.KernelRun
import proofs.«120666_j6957847019895_1_alg».proof.Proof.KernelIdealHost
import proofs.«120666_j6957847019895_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its four arguments as launched. -/
theorem frame_k : Cert.frame_Kernel := fun m ρ _ => Cert.Kernel.Hand.frame m ρ

/-- The same at the ideal values. -/
theorem frame_ki : Cert.frame_KernelIdeal := fun m ρ _ => Cert.KernelIdeal.Hand.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values, from memories that agree on the four arguments, the kernel's result buffer and the reference's
    both end at the specification of the arguments. -/
theorem algebraic : Cert.algebraic_KernelIdeal_ReferenceIdeal := by
  intro m ρ m' ρ' _ hagree
  refine ⟨fun c => Cert.Rbf.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_main (F := Ideal) m ρ)
    exact ⟨(h c).2.2.2.2.2.trans (Cert.KernelIdeal.HostValue.res_result m c),
      (h c).2.1.trans (Cert.KernelIdeal.Hand.V_arg m c Cert.KernelIdeal.main_arg0 (by decide)),
      (h c).2.2.1.trans (Cert.KernelIdeal.Hand.V_arg m c Cert.KernelIdeal.main_arg1 (by decide)),
      (h c).2.2.2.1.trans (Cert.KernelIdeal.Hand.V_arg m c Cert.KernelIdeal.main_arg2 (by decide)),
      (h c).2.2.2.2.1.trans (Cert.KernelIdeal.Hand.V_arg m c Cert.KernelIdeal.main_arg3 (by decide))⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v30_eq, Cert.ReferenceIdeal.RefValue.ref_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
